-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S64x1024 : Shape := ⟨2, ![64, 1024]⟩
abbrev S64 : Shape := ⟨1, ![64]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S64x1024 .f32) (main_arg2 : FVec F S64 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S64x1024 : Shape := ⟨2, ![64, 1024]⟩
abbrev S64 : Shape := ⟨1, ![64]⟩
abbrev S1024x1024 : Shape := ⟨2, ![1024, 1024]⟩
abbrev S4x64x1024 : Shape := ⟨3, ![4, 64, 1024]⟩
abbrev S1x512x1024 : Shape := ⟨3, ![1, 512, 1024]⟩
abbrev S1x64x1024 : Shape := ⟨3, ![1, 64, 1024]⟩
abbrev S512x1024 : Shape := ⟨2, ![512, 1024]⟩
abbrev S512 : Shape := ⟨1, ![512]⟩
abbrev S512x1 : Shape := ⟨2, ![512, 1]⟩
abbrev S512x64 : Shape := ⟨2, ![512, 64]⟩
abbrev S1x64 : Shape := ⟨2, ![1, 64]⟩

abbrev nBuf : Space → Nat
  | .hbm => 9
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S4x64x1024, .f32⟩
  | .hbm, ⟨8, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S64x1024, .f32⟩
  | .local _ .vmem, ⟨3, _⟩ => ⟨S64, .f32⟩
  | .local _ .vmem, ⟨4, _⟩ => ⟨S1024x1024, .bf16⟩
  | .local _ .vmem, ⟨5, _⟩ => ⟨S1x64x1024, .f32⟩
  | .local _ .vmem, ⟨6, _⟩ => ⟨S1x64x1024, .f32⟩
  | .local _ .vmem, ⟨7, _⟩ => ⟨S64x1024, .f32⟩
  | .local _ .vmem, ⟨8, _⟩ => ⟨S1x512x1024, .f32⟩
  | .local _ .vmem, ⟨9, _⟩ => ⟨S1x512x1024, .f32⟩
  | .local _ .vmem, ⟨10, _⟩ => ⟨S64x1024, .f32⟩
  | .local _ .vmem, ⟨11, _⟩ => ⟨S64, .f32⟩
  | .local _ .vmem, ⟨12, _⟩ => ⟨S1x64x1024, .f32⟩
  | .local _ .vmem, ⟨13, _⟩ => ⟨S1x64x1024, .f32⟩
  | .local _ .vmem, ⟨14, _⟩ => ⟨S1024x1024, .bf16⟩
  | .local _ .vmem, ⟨15, _⟩ => ⟨S1x512x1024, .f32⟩
  | .local _ .vmem, ⟨16, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_22 : BitVec 32 := 0#32
  let v54 : BitVec 1 := Scalar.cmpi .ne v53 c0_i32_22
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S64_S64_0 : ∀ a, (![0] : Fin 1 → Nat) a + S64.size a ≤ S64.size a
  h_S64 : 0 < S64.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  reduces_S64x1024_S64 : S64x1024.Reduces [1] S64
  broadcasts_S512x1_S512x64 : S512x1.Broadcasts S512x64
  shapeCasts_S64_S1x64 : S64.ShapeCasts S1x64
  broadcasts_S1x64_S512x64 : S1x64.Broadcasts S512x64
  reduces_S512x64_S512 : S512x64.Reduces [1] S512
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S64x1024_S512x64_1_1_0_0_n_n_wf : DotDims.WF S512x1024 S64x1024 S512x64 [1] [1] [0] [0] [] []
  dot_S512x64_S512x1024_S64x1024_0_0_1_1_n_n_wf : DotDims.WF S512x64 S512x1024 S64x1024 [0] [0] [1] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S4x64x1024.size a
  hwx0_4 : ∀ i : grid0.Coords, EltTy.bits .f32 = 32 ∨ (Rect.block (s := S4x64x1024) S1x64x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x1024.size a
  hwx1_1 : ∀ i : grid1.Coords, EltTy.bits .f32 = 32 ∨ (Rect.block (s := S64x1024) S64x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1024.size a ≤ S4x64x1024.size a
  hwx1_3 : ∀ i : grid1.Coords, EltTy.bits .f32 = 32 ∨ (Rect.block (s := S4x64x1024) S1x64x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S512x1024_S64x1024_0_0_1_1_n_n : DotDims S512x64 S512x1024 S64x1024 where
  lhsContracting := [0]
  rhsContracting := [0]
  lhsNonContracting := [1]
  rhsNonContracting := [1]
  lhsBatch := []
  rhsBatch := []
  wf := dot_S512x64_S512x1024_S64x1024_0_0_1_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S64x1024 : Shape := ⟨2, ![64, 1024]⟩
abbrev S64 : Shape := ⟨1, ![64]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S4x2048x64 : Shape := ⟨3, ![4, 2048, 64]⟩
abbrev S1x1x64 : Shape := ⟨3, ![1, 1, 64]⟩
abbrev S4x64x1024 : Shape := ⟨3, ![4, 64, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S64x1024, .f32⟩
  | .hbm, ⟨20, _⟩ => ⟨S_, .f32⟩
  | .hbm, ⟨21, _⟩ => ⟨S64, .f32⟩
  | .hbm, ⟨22, _⟩ => ⟨S4x2048x64, .f32⟩
  | .hbm, ⟨23, _⟩ => ⟨S_, .f32⟩
  | .hbm, ⟨24, _⟩ => ⟨S4x2048x64, .f32⟩
  | .hbm, ⟨25, _⟩ => ⟨S4x2048x64, .f32⟩
  | .hbm, ⟨26, _⟩ => ⟨S4x2048x64, .f32⟩
  | .hbm, ⟨27, _⟩ => ⟨S4x2048x64, .f32⟩
  | .hbm, ⟨28, _⟩ => ⟨S1x1x64, .f32⟩
  | .hbm, ⟨29, _⟩ => ⟨S4x2048x64, .f32⟩
  | .hbm, ⟨30, _⟩ => ⟨S4x2048x64, .f32⟩
  | .hbm, ⟨31, _⟩ => ⟨S_, .f32⟩
  | .hbm, ⟨32, _⟩ => ⟨S4x2048x64, .f32⟩
  | .hbm, ⟨33, _⟩ => ⟨S4x2048x64, .f32⟩
  | .hbm, ⟨34, _⟩ => ⟨S64, .f32⟩
  | .hbm, ⟨35, _⟩ => ⟨S1x1x64, .f32⟩
  | .hbm, ⟨36, _⟩ => ⟨S4x2048x64, .f32⟩
  | .hbm, ⟨37, _⟩ => ⟨S4x2048x64, .f32⟩
  | .hbm, ⟨38, _⟩ => ⟨S4x2048x64, .f32⟩
  | .hbm, ⟨39, _⟩ => ⟨S_, .f32⟩
  | .hbm, ⟨40, _⟩ => ⟨S4x2048x64, .f32⟩
  | .hbm, ⟨41, _⟩ => ⟨S4x2048x64, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x64, .f32⟩
  | .hbm, ⟨49, _⟩ => ⟨S4x2048x64, .f32⟩
  | .hbm, ⟨50, _⟩ => ⟨S4x64x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S64 : S_.BroadcastsInDim S64 (![] : Fin 0 → Fin S64.rank)
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  reducesTo_S64x1024_S64_d1 : S64x1024.ReducesTo [1] S64
  bcast_S_S4x2048x64 : S_.BroadcastsInDim S4x2048x64 (![] : Fin 0 → Fin S4x2048x64.rank)
  bcast_S4x2048x1_S4x2048x64_0_1_2 : S4x2048x1.BroadcastsInDim S4x2048x64 (![0, 1, 2] : Fin 3 → Fin S4x2048x64.rank)
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  reducesTo_S4x2048x64_S4x2048_d2 : S4x2048x64.ReducesTo [2] S4x2048
  bcast_S_S4x2048x1 : S_.BroadcastsInDim S4x2048x1 (![] : Fin 0 → Fin S4x2048x1.rank)
  dot_S4x2048x1024_S1024x1024_S4x2048x1024_2_1_01_0_n_n_wf : DotDims.WF S4x2048x1024 S1024x1024 S4x2048x1024 [2] [1] [0, 1] [0] [] []
  dot_S4x2048x1024_S64x1024_S4x2048x64_2_1_01_0_n_n_wf : DotDims.WF S4x2048x1024 S64x1024 S4x2048x64 [2] [1] [0, 1] [0] [] []
  dot_S4x2048x64_S4x2048x1024_S4x64x1024_1_1_2_2_0_0_wf : DotDims.WF S4x2048x64 S4x2048x1024 S4x64x1024 [1] [1] [2] [2] [0] [0]
  dot_S4x2048x64_S4x64x1024_S4x2048x1024_2_1_1_2_0_0_wf : DotDims.WF S4x2048x64 S4x64x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x1024_S4x64x1024_1_1_2_2_0_0 : DotDims S4x2048x64 S4x2048x1024 S4x64x1024 where
  lhsContracting := [1]
  rhsContracting := [1]
  lhsNonContracting := [2]
  rhsNonContracting := [2]
  lhsBatch := [0]
  rhsBatch := [0]
  wf := dot_S4x2048x64_S4x2048x1024_S4x64x1024_1_1_2_2_0_0_wf
def dot_S4x2048x64_S4x64x1024_S4x2048x1024_2_1_1_2_0_0 : DotDims S4x2048x64 S4x64x1024 S4x2048x1024 where
  lhsContracting := [2]
  rhsContracting := [1]
  lhsNonContracting := [1]
  rhsNonContracting := [2]
  lhsBatch := [0]
  rhsBatch := [0]
  wf := dot_S4x2048x64_S4x64x1024_S4x2048x1024_2_1_1_2_0_0_wf

class Facts : Prop extends Facts₀ where

variable [Facts]
-- ==== Proof.K.Body1.lean ====
/-
  The first call's body on one tile of 512 tokens. It keeps a running [64, 1024] state in a scratch buffer:
  at the first tile of a batch (second grid coordinate 0) it zeroes the scratch, at every tile it adds the tile's
  contribution  affᵀ · v  to it, and at the last tile of the batch (second coordinate 3) it copies the scratch into
  the output's staging buffer. So there are three kinds of point — first, middle, last — and at each the body is run
  once on whole staging memrefs; what it stored into the scratch (and, at a last point, into the output) is found
  by the run as a list of pieces, latest first.
-/
import proofs.«160092_j49744311222296_1_alg».proof.Proof.Gen.Kernel.Launch
import proofs.«160092_j49744311222296_1_alg».proof.Proof.Gen.Kernel.Skeleton
import proofs.«160092_j49744311222296_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions the body branches on, from the grid coordinates -/

/-- "This is a batch's first tile": the body's first conditional, the scalar chain it computes from the second coordinate. -/
abbrev isFirst (i : grid0.Coords) : Prop :=
  (Scalar.cmpi .ne (Scalar.extui (Scalar.cmpi .eq (BitVec.ofNat 32 (i 1).val) 0#32)) 0#32) = 1#1
/-- "This is a batch's last tile": the body's second conditional. -/
abbrev isLast (i : grid0.Coords) : Prop := k0_cond2 i = 1#1

/-- The first conditional holds at the points ≡ 0 (mod 4): decided over the 16 points. -/
theorem isFirst_iff : ∀ t : Fin cfg0.N, isFirst (grid0.coords t) ↔ t.val % 4 = 0 :=
  (by decide +kernel : ∀ t : Fin grid0.N, isFirst (grid0.coords t) ↔ t.val % 4 = 0)
/-- The second holds at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## The body at a FIRST point (scratch at anything, output untouched) -/

set_option maxHeartbeats 1000000 in
/-- At a first, not last, point: the inputs at `x0 … x3`, the output's buffer at `y` (the body does not touch it),
    the scratch at anything. The run ends with the inputs and the output as they were and the scratch with the
    pieces `LS` written, which the run finds. -/
noncomputable def runFirst (c : Dev nD) (i : grid0.Coords) (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1024x1024 .bf16) (h3 : a3.IsWhole)
    (a4 : Memref sig .tc .vmem S1x64x1024 .f32) (h4 : a4.IsWhole) (a5 : Memref sig .tc .vmem S64x1024 .f32) (h5 : a5.IsWhole)
    (hf : isFirst i) (hl : ¬isLast i) (x0 : Vec F S1x512x1024 .f32) (x1 : Vec F S64x1024 .f32) (x2 : Vec F S64 .f32) (x3 : Vec F S1024x1024 .bf16) :
    { LS : List (View.Piece (Elt F) S64x1024 .f32) //
      ∀ (y : Vec F S1x64x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y ∗ (∃ d, owns (c : Thread nD τ) a5 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y
                ∗ (∃ f, a5.view.loc (c : Thread nD τ) ↦[a5.view.set]{fullShare} a5.view.writes (Elt F) f LS)) -∗ K ⟨⟩))
          ⊢ wp frame (wpE (defs₀ (F := F)) Variants.none c none) E (cc0__stage1_kernel i a0 h0 a1 h1 a2 h2 a3 h3 a4 h4 a5 h5) K } := by
  refine ⟨?_, fun y E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, H4, ⟨%d5, %f5, -, H5⟩, Hk⟩
    obtain rfl := h0.eq_unread hf0; obtain rfl := h1.eq_unread hf1; obtain rfl := h2.eq_unread hf2; obtain rfl := h3.eq_unread hf3
    sl_exec (disch := first | exact hf | exact hl)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexact H4
    iexists _; iexact H5

/-! ## The body at a MIDDLE point (scratch carried, output untouched) -/

set_option maxHeartbeats 1000000 in
/-- At a point neither first nor last: the scratch comes in at `s`, what the point before left. -/
noncomputable def runMiddle (c : Dev nD) (i : grid0.Coords) (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1024x1024 .bf16) (h3 : a3.IsWhole)
    (a4 : Memref sig .tc .vmem S1x64x1024 .f32) (h4 : a4.IsWhole) (a5 : Memref sig .tc .vmem S64x1024 .f32) (h5 : a5.IsWhole)
    (hf : ¬isFirst i) (hl : ¬isLast i) (x0 : Vec F S1x512x1024 .f32) (x1 : Vec F S64x1024 .f32) (x2 : Vec F S64 .f32) (x3 : Vec F S1024x1024 .bf16) (s : Vec F S64x1024 .f32) :
    { LS : List (View.Piece (Elt F) S64x1024 .f32) //
      ∀ (y : Vec F S1x64x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y ∗ owns (c : Thread nD τ) a5 fullShare s
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y
                ∗ (∃ f, a5.view.loc (c : Thread nD τ) ↦[a5.view.set]{fullShare} a5.view.writes (Elt F) f LS)) -∗ K ⟨⟩))
          ⊢ wp frame (wpE (defs₀ (F := F)) Variants.none c none) E (cc0__stage1_kernel i a0 h0 a1 h1 a2 h2 a3 h3 a4 h4 a5 h5) K } := by
  refine ⟨?_, fun y E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, H4, ⟨%f5, %hf5, H5⟩, Hk⟩
    obtain rfl := h0.eq_unread hf0; obtain rfl := h1.eq_unread hf1; obtain rfl := h2.eq_unread hf2; obtain rfl := h3.eq_unread hf3
    obtain rfl := h5.eq_unread hf5
    sl_exec (disch := first | exact hf | exact hl)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexact H4
    iexists _; iexact H5

/-! ## The body at a LAST point (scratch carried, output stored) -/

set_option maxHeartbeats 1000000 in
/-- At a last, not first, point: the scratch comes in at `s`; the output's buffer, at anything, ends with the pieces
    `LO` written and the scratch with `LS`. -/
noncomputable def runLast (c : Dev nD) (i : grid0.Coords) (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1024x1024 .bf16) (h3 : a3.IsWhole)
    (a4 : Memref sig .tc .vmem S1x64x1024 .f32) (h4 : a4.IsWhole) (a5 : Memref sig .tc .vmem S64x1024 .f32) (h5 : a5.IsWhole)
    (hf : ¬isFirst i) (hl : isLast i) (x0 : Vec F S1x512x1024 .f32) (x1 : Vec F S64x1024 .f32) (x2 : Vec F S64 .f32) (x3 : Vec F S1024x1024 .bf16) (s : Vec F S64x1024 .f32) :
    Σ' (LO : List (View.Piece (Elt F) S1x64x1024 .f32)), { LS : List (View.Piece (Elt F) S64x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) a5 fullShare s
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f LO)
                ∗ (∃ f, a5.view.loc (c : Thread nD τ) ↦[a5.view.set]{fullShare} a5.view.writes (Elt F) f LS)) -∗ K ⟨⟩))
          ⊢ wp frame (wpE (defs₀ (F := F)) Variants.none c none) E (cc0__stage1_kernel i a0 h0 a1 h1 a2 h2 a3 h3 a4 h4 a5 h5) K } := by
  refine ⟨?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := h0.eq_unread hf0; obtain rfl := h1.eq_unread hf1; obtain rfl := h2.eq_unread hf2; obtain rfl := h3.eq_unread hf3
    obtain rfl := h5.eq_unread hf5
    sl_exec (disch := first | exact hf | exact hl)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.Kernel.Stage1

end
-- ==== Proof.K.Data1.lean ====
/-
  The first call as a pipeline. The scratch buffer carries the batch's running state from tile to tile, so what it
  holds after the body at point n is defined by recursion on n: at a batch's first tile the body's stores over a
  zeroed scratch, at a later tile its stores over what the tile before left. The output's staging buffer is stored
  only at a batch's last tile (it is idle, and not written back, at the others). The invariant between points is the
  scratch at that running contents, beside the other scoped buffers and the generator register, untouched.
  Everything is stated over `V`, the contents of the core's buffers when the call is entered.
-/
import proofs.«160092_j49744311222296_1_alg».proof.Proof.K.Body1

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from a batch's last tile the body stores nothing into the output's buffer, -/
theorem idle_out : ∀ t : Fin cfg0.N, ¬isLast (grid0.coords t) → cfg0.idle 4 (grid0.coords t) = true := by decide +kernel
/-- and the pipeline does not write the block back there. -/
theorem noflush_out : ∀ t : Fin cfg0.N, ¬isLast (grid0.coords t) → (cfg0.win 4).flush t = false := by decide +kernel
/-- At a batch's last tile it stores the block. -/
theorem live_out : ∀ t : Fin cfg0.N, isLast (grid0.coords t) → cfg0.idle 4 (grid0.coords t) = false := by decide +kernel

/-! ## The memrefs the pipeline calls the body with -/

abbrev m0 (t : Fin cfg0.N) : Memref sig .tc .vmem S1x512x1024 .f32 := win0_0.stage (cfg0.slots t 0)
abbrev hm0 (t : Fin cfg0.N) : (m0 t).IsWhole := hstage0_0 ((cfg0.slots t 0).cast nbuf0_0)
abbrev m1 (t : Fin cfg0.N) : Memref sig .tc .vmem S64x1024 .f32 := win0_1.stage (cfg0.slots t 1)
abbrev hm1 (t : Fin cfg0.N) : (m1 t).IsWhole := hstage0_1 ((cfg0.slots t 1).cast nbuf0_1)
abbrev m2 (t : Fin cfg0.N) : Memref sig .tc .vmem S64 .f32 := win0_2.stage (cfg0.slots t 2)
abbrev hm2 (t : Fin cfg0.N) : (m2 t).IsWhole := hstage0_2 ((cfg0.slots t 2).cast nbuf0_2)
abbrev m3 (t : Fin cfg0.N) : Memref sig .tc .vmem S1024x1024 .bf16 := win0_3.stage (cfg0.slots t 3)
abbrev hm3 (t : Fin cfg0.N) : (m3 t).IsWhole := hstage0_3 ((cfg0.slots t 3).cast nbuf0_3)
abbrev m4 (t : Fin cfg0.N) : Memref sig .tc .vmem S1x64x1024 .f32 := win0_4.stage (cfg0.slots t 4)
abbrev hm4 (t : Fin cfg0.N) : (m4 t).IsWhole := hstage0_4 ((cfg0.slots t 4).cast nbuf0_4)
/-- The scratch: a whole scoped buffer of the kernel's own. -/
abbrev scr : Memref sig .tc .vmem S64x1024 .f32 := Memref.whole cc0_scratch0
/-- The views through which the scratch's and the output buffer's contents are stated (which buffer does not matter once
    the pieces cover the shape). -/
abbrev vScr : View sig .tc .vmem S64x1024 .f32 := scr.view
abbrev vOut : View sig .tc .vmem S1x64x1024 .f32 := (Memref.whole cc0_stg4_0 : Memref sig .tc .vmem S1x64x1024 .f32).view

/-! ## What each kind of point leaves -/

/-- The scratch after a first point: the run's pieces read back. -/
def scrFirst (c : Dev nD) (t : Fin cfg0.N) (hf : isFirst (grid0.coords t)) (hl : ¬isLast (grid0.coords t)) : Vec F S64x1024 .f32 :=
  vScr.read (Elt F) (vScr.writes (Elt F) vScr.junk (runFirst c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t)).1)
theorem scrFirst_cover (c : Dev nD) (t : Fin cfg0.N) (hf : isFirst (grid0.coords t)) (hl : ¬isLast (grid0.coords t)) (y : S64x1024.Idx) :
    ∃ pc ∈ (runFirst c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t)).1, y ∈ pc.1.set :=
  View.cover_of_tiledL (runFirst c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t)).1 S64x1024.size (by sl_kernel_rfl) y

/-- The scratch after a middle point that found it at `s`. -/
def scrMiddle (c : Dev nD) (t : Fin cfg0.N) (hf : ¬isFirst (grid0.coords t)) (hl : ¬isLast (grid0.coords t)) (s : Vec F S64x1024 .f32) : Vec F S64x1024 .f32 :=
  vScr.read (Elt F) (vScr.writes (Elt F) vScr.junk (runMiddle c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1)
theorem scrMiddle_cover (c : Dev nD) (t : Fin cfg0.N) (hf : ¬isFirst (grid0.coords t)) (hl : ¬isLast (grid0.coords t)) (s : Vec F S64x1024 .f32) (y : S64x1024.Idx) :
    ∃ pc ∈ (runMiddle c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1, y ∈ pc.1.set :=
  View.cover_of_tiledL (runMiddle c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1 S64x1024.size (by sl_kernel_rfl) y

/-- The scratch after a last point that found it at `s`, -/
def scrLast (c : Dev nD) (t : Fin cfg0.N) (hf : ¬isFirst (grid0.coords t)) (hl : isLast (grid0.coords t)) (s : Vec F S64x1024 .f32) : Vec F S64x1024 .f32 :=
  vScr.read (Elt F) (vScr.writes (Elt F) vScr.junk (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).2.1)
theorem scrLast_cover (c : Dev nD) (t : Fin cfg0.N) (hf : ¬isFirst (grid0.coords t)) (hl : isLast (grid0.coords t)) (s : Vec F S64x1024 .f32) (y : S64x1024.Idx) :
    ∃ pc ∈ (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).2.1, y ∈ pc.1.set :=
  View.cover_of_tiledL (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).2.1 S64x1024.size (by sl_kernel_rfl) y
/-- and the output's staging buffer after it. -/
def outLast (c : Dev nD) (t : Fin cfg0.N) (hf : ¬isFirst (grid0.coords t)) (hl : isLast (grid0.coords t)) (s : Vec F S64x1024 .f32) : Vec F S1x64x1024 .f32 :=
  vOut.read (Elt F) (vOut.writes (Elt F) vOut.junk (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1)
theorem outLast_cover (c : Dev nD) (t : Fin cfg0.N) (hf : ¬isFirst (grid0.coords t)) (hl : isLast (grid0.coords t)) (s : Vec F S64x1024 .f32) (y : S1x64x1024.Idx) :
    ∃ pc ∈ (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1, y ∈ pc.1.set :=
  View.cover_of_tiledL (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1 S1x64x1024.size (by sl_kernel_rfl) y

/-! ## The running state -/

theorem not_last_of_first (t : Fin cfg0.N) (h : t.val % 4 = 0) : ¬isLast (grid0.coords t) :=
  fun hl => by have := (isLast_iff t).mp hl; omega

/-- THE ACCUMULATION: what the scratch holds after the body at position `n`. At a batch's first tile the body's stores
    (it zeroes the scratch first); at a later tile its stores over what position `n - 1` left. -/
def scrAt (c : Dev nD) : (n : ℕ) → n < cfg0.N → Vec F S64x1024 .f32
  | 0, hn => scrFirst V c ⟨0, hn⟩ ((isFirst_iff ⟨0, hn⟩).mpr (Nat.zero_mod _)) (not_last_of_first ⟨0, hn⟩ (Nat.zero_mod _))
  | n + 1, hn =>
    if h0 : (n + 1) % 4 = 0 then
      scrFirst V c ⟨n + 1, hn⟩ ((isFirst_iff ⟨n + 1, hn⟩).mpr h0) (not_last_of_first ⟨n + 1, hn⟩ h0)
    else if h1 : (n + 1) % 4 = 3 then
      scrLast V c ⟨n + 1, hn⟩ (fun h => h0 ((isFirst_iff ⟨n + 1, hn⟩).mp h)) ((isLast_iff ⟨n + 1, hn⟩).mpr h1) (scrAt c n (Nat.lt_of_succ_lt hn))
    else
      scrMiddle V c ⟨n + 1, hn⟩ (fun h => h0 ((isFirst_iff ⟨n + 1, hn⟩).mp h)) (fun h => h1 ((isLast_iff ⟨n + 1, hn⟩).mp h)) (scrAt c n (Nat.lt_of_succ_lt hn))

theorem scrAt_first (c : Dev nD) (t : Fin cfg0.N) (h0 : t.val % 4 = 0) :
    scrAt V c t.val t.isLt = scrFirst V c t ((isFirst_iff t).mpr h0) (not_last_of_first t h0) := by
  obtain ⟨n, hn⟩ := t
  cases n with
  | zero => rfl
  | succ n => exact (dif_pos h0).trans rfl

theorem scrAt_last (c : Dev nD) (t : Fin cfg0.N) (h0 : ¬t.val % 4 = 0) (h1 : t.val % 4 = 3) :
    scrAt V c t.val t.isLt = scrLast V c t (fun h => h0 ((isFirst_iff t).mp h)) ((isLast_iff t).mpr h1)
      (scrAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem scrAt_middle (c : Dev nD) (t : Fin cfg0.N) (h0 : ¬t.val % 4 = 0) (h1 : ¬t.val % 4 = 3) :
    scrAt V c t.val t.isLt = scrMiddle V c t (fun h => h0 ((isFirst_iff t).mp h)) (fun h => h1 ((isLast_iff t).mp h))
      (scrAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- What the output's staging buffer holds after the body at point `t`: at a batch's last tile the body's store over the
    running state; elsewhere a placeholder nothing consults (the window is idle there and not written back). -/
def outAt (c : Dev nD) (t : Fin cfg0.N) : Vec F S1x64x1024 .f32 :=
  if h1 : t.val % 4 = 3 then
    outLast V c t (fun h => by have := (isFirst_iff t).mp h; omega) ((isLast_iff t).mpr h1)
      (scrAt V c (t.val - 1) (Nat.lt_of_le_of_lt (Nat.sub_le _ _) t.isLt))
  else vOut.read (Elt F) vOut.junk

/-! ## The invariant between points -/

/-- The scoped buffers no window of this call stages, other than the scratch: the other call's nine staging buffers,
    each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the call: the scratch at anything, the others, the generator register at some state. -/
theorem PhiA_eq (c : Dev nD) :
    (Pipeline.ΦA spec0 c : sProp 𝕄) = iprop(((∃ d, owns (c : Thread nD τ) scr fullShare d) ∗ others c) ∗ (∃ r, prngReg c r)) := by
  unfold Pipeline.ΦA others; rw [scopedRest0_eq]; simp only [scr, owns_whole]; try rfl

/-- The invariant before position `n`: before the first point what the launch hands over; afterwards the scratch at
    what position `n - 1` left. -/
def Inv (c : Dev nD) : (n : ℕ) → n ≤ cfg0.N → sProp 𝕄
  | 0, _ => Pipeline.ΦA spec0 c
  | n + 1, hn => iprop((owns (c : Thread nD τ) scr fullShare (scrAt V c n hn) ∗ others c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop((owns (c : Thread nD τ) scr fullShare (scrAt V c n hn) ∗ others c) ∗ (∃ r, prngReg c r)) := rfl
theorem Inv_pos (c : Dev nD) (n : ℕ) (h : n ≤ cfg0.N) (hz : n ≠ 0) :
    Inv V c n h = iprop((owns (c : Thread nD τ) scr fullShare (scrAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => outAt V c t
  Φ t := Inv V c t.val (Nat.le_of_lt_succ t.isLt)
  q _ := fullShare
  owed _ := 0

theorem dat_A (c : Dev nD) (w : Fin cfg0.W) : (dat V c).A w = V c (Pipeline.arrRef spec0 w) := by
  dsimp only [dat]
theorem Inv_castSucc (c : Dev nD) (t : Fin cfg0.N) : (dat V c).Φ t.castSucc = Inv V c t.val (Nat.le_of_lt t.isLt) := by
  dsimp only [dat]; simp only [Fin.coe_castSucc]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = outAt V c t := by dsimp only [dat]

theorem before0 (c : Dev nD) (t : Fin cfg0.N) (d) : (dat V c).before 0 t d = blk V c 0 t :=
  before_in0 V (dat V c) (dat_A V c 0) (after0 V c) t d
theorem before1 (c : Dev nD) (t : Fin cfg0.N) (d) : (dat V c).before 1 t d = blk V c 1 t :=
  before_in1 V (dat V c) (dat_A V c 1) (after1 V c) t d
theorem before2 (c : Dev nD) (t : Fin cfg0.N) (d) : (dat V c).before 2 t d = blk V c 2 t :=
  before_in2 V (dat V c) (dat_A V c 2) (after2 V c) t d
theorem before3 (c : Dev nD) (t : Fin cfg0.N) (d) : (dat V c).before 3 t d = blk V c 3 t :=
  before_in3 V (dat V c) (dat_A V c 3) (after3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d))
    ∗ (∃ d, owns (c : Thread nD τ) (m3 t) fullShare ((dat V c).before 3 t d))
    ∗ (∃ d, owns (c : Thread nD τ) (m4 t) fullShare ((dat V c).before 4 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point, by the kind of point: the inputs' memrefs hold their blocks; the invariant hands over the scratch
    at what the point before left (at anything before the first point) and takes it back at this point's contents; at a
    batch's last tile the output's buffer is handed back with the body's store, elsewhere as it was found. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = Inv V c (t.val + 1) t.isLt from rfl, Inv_succ]
  have hN : t.val < 16 := lt_of_lt_of_eq t.isLt (show cfg0.N = 16 from N_0)
  rw [show (dat V c).leavesExact 0 t = owns (c : Thread nD τ) (m0 t) fullShare ((dat V c).after 0 t) from by
      unfold Dat.leavesExact; rw [live0 t], after0,
    show (dat V c).leavesExact 1 t = owns (c : Thread nD τ) (m1 t) fullShare ((dat V c).after 1 t) from by
      unfold Dat.leavesExact; rw [live1 t], after1,
    show (dat V c).leavesExact 2 t = owns (c : Thread nD τ) (m2 t) fullShare ((dat V c).after 2 t) from by
      unfold Dat.leavesExact; rw [live2 t], after2,
    show (dat V c).leavesExact 3 t = owns (c : Thread nD τ) (m3 t) fullShare ((dat V c).after 3 t) from by
      unfold Dat.leavesExact; rw [live3 t], after3]
  by_cases h0 : t.val % 4 = 0
  · -- a batch's first tile
    have hl : ¬isLast (grid0.coords t) := not_last_of_first t h0
    rw [Dat.leavesExact_idle (dat V c) 4 t (idle_out t hl) (noflush_out t hl), scrAt_first V c t h0]
    unfold scrFirst
    by_cases hz : t.val = 0
    · rw [Inv_castSucc V c t, Inv_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((isFirst_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scrFirst_cover V c t _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((isFirst_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scrFirst_cover V c t _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · -- a batch's last tile
      have hf : ¬isFirst (grid0.coords t) := fun h => h0 ((isFirst_iff t).mp h)
      have hl : isLast (grid0.coords t) := (isLast_iff t).mpr h1
      rw [show (dat V c).leavesExact 4 t = owns (c : Thread nD τ) (m4 t) fullShare ((dat V c).after 4 t) from by
        unfold Dat.leavesExact; rw [live_out t hl], after4]
      rw [scrAt_last V c t h0 h1, show outAt V c t = outLast V c t (fun h => by have := (isFirst_iff t).mp h; omega) hl
        (scrAt V c (t.val - 1) (Nat.lt_of_le_of_lt (Nat.sub_le _ _) t.isLt)) from dif_pos h1]
      unfold scrLast outLast
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hf hl (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scrLast_cover V c t _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast_cover V c t _ _ _)
    · -- a middle tile
      have hf : ¬isFirst (grid0.coords t) := fun h => h0 ((isFirst_iff t).mp h)
      have hl : ¬isLast (grid0.coords t) := fun h => h1 ((isLast_iff t).mp h)
      rw [Dat.leavesExact_idle (dat V c) 4 t (idle_out t hl) (noflush_out t hl), scrAt_middle V c t h0 h1]
      unfold scrMiddle
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ hf hl (blk V c 0 t) (blk V c 1 t) (blk V c 2 t) (blk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scrMiddle_cover V c t _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact body_at V c t

/-- What the launch hands the call is the invariant before the first point. -/
theorem inv_in (c : Dev nD) : Pipeline.ΦA spec0 c ⊢ (dat V c).Φ 0 := by
  rw [show (dat V c).Φ 0 = Inv V c 0 (Nat.zero_le _) from rfl, Inv_zero V c 0 _ rfl]
  try exact Idealize.SL.BI.Entails.refl _

/-- After the last point the invariant gives it back: the scratch's named contents are forgotten. -/
theorem inv_out (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl,
    Inv_pos V c _ _ (by rw [Fin.val_last]; have : cfg0.N = 16 := N_0; omega), PhiA_eq]
  iintro ⟨⟨HS, Hoth⟩, Hg⟩
  isplitl [HS Hoth]
  · isplitl [HS]
    · iexists _; iexact HS
    iexact Hoth
  iexact Hg

end Cert.Kernel.Stage1

end
-- ==== Proof.K.Body2.lean ====
/-
  The second call's body on one tile of 512 tokens: it reads the tile, the centres, the log-scales, the batch's
  64 centre states and the output weights, and stores ONE whole block: each token's affinities times the states,
  times the weights. Nothing is kept between grid points and every buffer is read or written whole, so what the
  body leaves in the output's staging buffer is one function of the five blocks it was handed.
-/
import proofs.«160092_j49744311222296_1_alg».proof.Proof.Gen.Kernel.Launch
import proofs.«160092_j49744311222296_1_alg».proof.Proof.Gen.Kernel.Skeleton
import proofs.«160092_j49744311222296_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rTok : Rect S1x512x1024 := Rect.unit (s := S1x512x1024) ![0, 0, 0] S1x512x1024.size inb_S1x512x1024_S1x512x1024_0_0_0
abbrev rCtr : Rect S64x1024 := Rect.unit (s := S64x1024) ![0, 0] S64x1024.size inb_S64x1024_S64x1024_0_0
abbrev rLs : Rect S64 := Rect.unit (s := S64) ![0] S64.size inb_S64_S64_0
abbrev rSt : Rect S1x64x1024 := Rect.unit (s := S1x64x1024) ![0, 0, 0] S1x64x1024.size inb_S1x64x1024_S1x64x1024_0_0_0
abbrev rW : Rect S1024x1024 := Rect.unit (s := S1024x1024) ![0, 0] S1024x1024.size inb_S1024x1024_S1024x1024_0_0

/-- What the body leaves in the output's staging buffer, from the five blocks it read: its one store. -/
def tileOut (x0 : Vec F S1x512x1024 .f32) (x1 : Vec F S64x1024 .f32) (x2 : Vec F S64 .f32) (x3 : Vec F S1x64x1024 .f32)
    (x4 : Vec F S1024x1024 .bf16) : Vec F S1x512x1024 .f32 :=
  View.canon [⟨rTok, k1_pay1 (k1_pay2 (View.ld x3 rSt)) (k1_pay3 (View.ld x4 rW)) (k1_pay4 (View.ld x0 rTok) (View.ld x1 rCtr) (View.ld x2 rLs))
    (k1_pay5 (View.ld x0 rTok) (View.ld x1 rCtr) (View.ld x2 rLs)) (k1_pay6 (F := F))⟩]

/-- The one store is through the whole block, so it covers it. -/
theorem tileOut_cover (p0 : Vec F S1x512x1024 .f32) (y : S1x512x1024.Idx) :
    ∃ pc ∈ ([⟨rTok, p0⟩] : List (View.Piece (Elt F) S1x512x1024 .f32)), y ∈ pc.1.set :=
  View.cover_of_tiled [⟨rTok, p0⟩] S1x512x1024.size (by rfl) y

set_option maxHeartbeats 1000000 in
/-- The body on whole staging memrefs, the five inputs at contents `x0 … x4` and the output at anything, runs to the
    continuation with the inputs as they were and the output at `tileOut`. -/
theorem body_runs (c : Dev nD) (E : Set ℕ) (i : grid1.Coords)
    (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1x64x1024 .f32) (h3 : a3.IsWhole)
    (a4 : Memref sig .tc .vmem S1024x1024 .bf16) (h4 : a4.IsWhole) (a5 : Memref sig .tc .vmem S1x512x1024 .f32) (h5 : a5.IsWhole)
    (x0 : Vec F S1x512x1024 .f32) (x1 : Vec F S64x1024 .f32) (x2 : Vec F S64 .f32) (x3 : Vec F S1x64x1024 .f32) (x4 : Vec F S1024x1024 .bf16)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (tileOut x0 x1 x2 x3 x4)) -∗ K ⟨⟩))
      ⊢ wp frame (wpE (defs₀ (F := F)) Variants.none c none) E (cc1__stage2_kernel i a0 h0 a1 h1 a2 h2 a3 h3 a4 h4 a5 h5) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_cover _)

end Cert.Kernel.Stage2

end
-- ==== Proof.K.Data2.lean ====
/-
  The second call as a pipeline: what each window's staging buffer holds after the body at each grid point.
  Every input window keeps its block; the output window holds the body's one store of the five input blocks.
  Everything is stated over `V`, the contents of the core's buffers when the call is entered.
-/
import proofs.«160092_j49744311222296_1_alg».proof.Proof.K.Body2

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not: where it is not
    fetched its block index has not moved since the point before. -/
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not: where it is not
    fetched its block index has not moved since the point before. -/
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not: where it is not
    fetched its block index has not moved since the point before. -/
theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not: where it is not
    fetched its block index has not moved since the point before. -/
theorem before_in4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of the second call on core `c`: the arrays as the call finds them; after the body each input's
    buffer at its block and the output's at the body's store of the five blocks; nothing kept between points beyond
    the scoped buffers no window stages and the generator register; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => tileOut (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) :
    (dat V c).after 5 t = tileOut (blk V c 0 t) (blk V c 1 t) (blk V c 2 t) (blk V c 3 t) (blk V c 4 t) := by dsimp only [dat]

theorem before0 (c : Dev nD) (t : Fin cfg1.N) (d) : (dat V c).before 0 t d = blk V c 0 t :=
  before_in0 V (dat V c) (dat_A V c 0) (after0 V c) t d
theorem before1 (c : Dev nD) (t : Fin cfg1.N) (d) : (dat V c).before 1 t d = blk V c 1 t :=
  before_in1 V (dat V c) (dat_A V c 1) (after1 V c) t d
theorem before2 (c : Dev nD) (t : Fin cfg1.N) (d) : (dat V c).before 2 t d = blk V c 2 t :=
  before_in2 V (dat V c) (dat_A V c 2) (after2 V c) t d
theorem before3 (c : Dev nD) (t : Fin cfg1.N) (d) : (dat V c).before 3 t d = blk V c 3 t :=
  before_in3 V (dat V c) (dat_A V c 3) (after3 V c) t d
theorem before4 (c : Dev nD) (t : Fin cfg1.N) (d) : (dat V c).before 4 t d = blk V c 4 t :=
  before_in4 V (dat V c) (dat_A V c 4) (after4 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's run applies; the invariant and the
    core's dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.Kernel.Stage2

end
-- ==== Proof.K.Whole.lean ====
/-
  The whole program: a stretch of two host operations (the two weight matrices cast to bf16), the first call, the
  second call. Between two items core c holds every unscoped buffer whole, at contents named here: at launch the
  memory; after the host stretch its two results added; after the first call the centre states main_v2 at what that
  call's write-backs leave; after the second call the result main_v3 likewise. Each call is entered from those
  contents: its arrays are split out of the unscoped buffers, the pipeline runs over the body obligation, and the arrays
  are put back at what the write-backs left. The frame then follows from the generated conditional frame.
-/
import proofs.«160092_j49744311222296_1_alg».proof.Proof.K.Data1
import proofs.«160092_j49744311222296_1_alg».proof.Proof.K.Data2
import proofs.«160092_j49744311222296_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between items -/

/-- What the first call is entered with: the launch memory after the host stretch. -/
abbrev Vin0 (c : Dev nD) (b : Ref sig .tc) : Buf (Elt F) ((c : Thread nD τ).loc b) := Gen.V1 m c b
/-- The centre states as the first call's write-backs leave them. -/
def states (c : Dev nD) : Buf (Elt F) ((c : Thread nD τ).loc main_v2) := (Stage1.dat (Vin0 m) c).arrAt 4 cfg0.N
/-- After the first call: only main_v2 has changed. -/
def W2 (c : Dev nD) : Valuation τ sig (Elt F) := Function.update (Gen.V1 m c) main_v2 (states m c)
/-- What the second call is entered with. -/
abbrev Vin1 (c : Dev nD) (b : Ref sig .tc) : Buf (Elt F) ((c : Thread nD τ).loc b) := W2 m c b
/-- The result as the second call's write-backs leave it. -/
def result (c : Dev nD) : Buf (Elt F) ((c : Thread nD τ).loc main_v3) := (Stage2.dat (Vin1 m) c).arrAt 5 cfg1.N
/-- After the second call: only main_v3 has changed. -/
def W3 (c : Dev nD) : Valuation τ sig (Elt F) := Function.update (W2 m c) main_v3 (result m c)

/-- The contents the two calls leave, in the form the generated conditional frame is stated over. -/
def outs : Gen.Outs (F := F) := fun _ r c =>
  if h : r = main_v2 then h ▸ states m c else if h' : r = main_v3 then h' ▸ result m c else Gen.V1 m c r

theorem outs_states (j : ℕ) (c : Dev nD) : outs m j main_v2 c = states m c := by
  unfold outs; rw [dif_pos rfl]
theorem outs_result (j : ℕ) (c : Dev nD) : outs m j main_v3 c = result m c := by
  unfold outs; rw [dif_neg (by decide), dif_pos rfl]
theorem V2_eq (c : Dev nD) : Gen.V2 m (outs m) c = W2 m c := by
  show Function.update (Gen.V1 m c) main_v2 (outs m 2 main_v2 c) = _
  rw [outs_states]; rfl
theorem V3_eq (c : Dev nD) : Gen.V3 m (outs m) c = W3 m c := by
  show Function.update (Gen.V2 m (outs m) c) main_v3 (outs m 3 main_v3 c) = _
  rw [outs_result, V2_eq]; rfl

/-- The first call changes main_v2 only, -/
theorem W2_of_ne (c : Dev nD) (b : Ref sig .tc) (h : b ≠ main_v2) : W2 m c b = Gen.V1 m c b :=
  Function.update_of_ne (StableHlo.devRef_ne_of_ne h : (Proc.devRef .tc b : DevRef τ sig) ≠ Proc.devRef .tc main_v2) _ _
theorem W2_self (c : Dev nD) : W2 m c main_v2 = states m c := Function.update_self _ _ _
/-- and the second main_v3 only. -/
theorem W3_of_ne (c : Dev nD) (b : Ref sig .tc) (h : b ≠ main_v3) : W3 m c b = W2 m c b :=
  Function.update_of_ne (StableHlo.devRef_ne_of_ne h : (Proc.devRef .tc b : DevRef τ sig) ≠ Proc.devRef .tc main_v3) _ _
theorem W3_self (c : Dev nD) : W3 m c main_v3 = result m c := Function.update_self _ _ _

/-! ## Each call's arrays at its exit -/

theorem exit0 (c : Dev nD) (w : Fin cfg0.W) : (Stage1.dat (Vin0 m) c).arrAt w cfg0.N = W2 m c (Pipeline.arrRef spec0 w) := by
  match w with
  | ⟨0, _⟩ => exact ((Stage1.dat (Vin0 m) c).arrAt_in 0 rfl _).trans ((Stage1.dat_A (Vin0 m) c 0).trans (W2_of_ne m c (Pipeline.arrRef spec0 0) (by decide)).symm)
  | ⟨1, _⟩ => exact ((Stage1.dat (Vin0 m) c).arrAt_in 1 rfl _).trans ((Stage1.dat_A (Vin0 m) c 1).trans (W2_of_ne m c (Pipeline.arrRef spec0 1) (by decide)).symm)
  | ⟨2, _⟩ => exact ((Stage1.dat (Vin0 m) c).arrAt_in 2 rfl _).trans ((Stage1.dat_A (Vin0 m) c 2).trans (W2_of_ne m c (Pipeline.arrRef spec0 2) (by decide)).symm)
  | ⟨3, _⟩ => exact ((Stage1.dat (Vin0 m) c).arrAt_in 3 rfl _).trans ((Stage1.dat_A (Vin0 m) c 3).trans (W2_of_ne m c (Pipeline.arrRef spec0 3) (by decide)).symm)
  | ⟨4, _⟩ => exact (W2_self m c).symm
theorem rest0 (c : Dev nD) : ∀ b, b ∉ Finset.univ.image (Pipeline.arrRef spec0) → W2 m c b = Gen.V1 m c b := fun b hb =>
  W2_of_ne m c b fun e => hb (Finset.mem_image.mpr ⟨4, Finset.mem_univ _, e.symm⟩)

theorem exit1 (c : Dev nD) (w : Fin cfg1.W) : (Stage2.dat (Vin1 m) c).arrAt w cfg1.N = W3 m c (Pipeline.arrRef spec1 w) := by
  match w with
  | ⟨0, _⟩ => exact ((Stage2.dat (Vin1 m) c).arrAt_in 0 rfl _).trans ((Stage2.dat_A (Vin1 m) c 0).trans (W3_of_ne m c (Pipeline.arrRef spec1 0) (by decide)).symm)
  | ⟨1, _⟩ => exact ((Stage2.dat (Vin1 m) c).arrAt_in 1 rfl _).trans ((Stage2.dat_A (Vin1 m) c 1).trans (W3_of_ne m c (Pipeline.arrRef spec1 1) (by decide)).symm)
  | ⟨2, _⟩ => exact ((Stage2.dat (Vin1 m) c).arrAt_in 2 rfl _).trans ((Stage2.dat_A (Vin1 m) c 2).trans (W3_of_ne m c (Pipeline.arrRef spec1 2) (by decide)).symm)
  | ⟨3, _⟩ => exact ((Stage2.dat (Vin1 m) c).arrAt_in 3 rfl _).trans ((Stage2.dat_A (Vin1 m) c 3).trans (W3_of_ne m c (Pipeline.arrRef spec1 3) (by decide)).symm)
  | ⟨4, _⟩ => exact ((Stage2.dat (Vin1 m) c).arrAt_in 4 rfl _).trans ((Stage2.dat_A (Vin1 m) c 4).trans (W3_of_ne m c (Pipeline.arrRef spec1 4) (by decide)).symm)
  | ⟨5, _⟩ => exact (W3_self m c).symm
theorem rest1 (c : Dev nD) : ∀ b, b ∉ Finset.univ.image (Pipeline.arrRef spec1) → W3 m c b = W2 m c b := fun b hb =>
  W3_of_ne m c b fun e => hb (Finset.mem_image.mpr ⟨5, Finset.mem_univ _, e.symm⟩)

/-! ## The proof data family and what rides beside the buffers -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => Stage1.dat (Vin0 m) c
  | ⟨1, _⟩ => fun c => Stage2.dat (Vin1 m) c
abbrev 𝒱₀ : Variants := Variants.none
/-- No core owes another anything. -/
abbrev L : GSem nD τ sig → Finset Unit := fun _ => ∅
abbrev lv : GSem nD τ sig → Unit → ℕ := fun _ _ => 0
/-- Beside the buffers through every item: the generator register at some state and the core owing nothing. -/
abbrev Rest (c : Dev nD) : sProp 𝕄 := iprop((∃ r, prngReg c r) ∗ ∃ W, owes (c : Thread nD τ) (0 : CellTallies nD τ sig Unit) W)

/-! ## The two calls as region records -/

set_option backward.isDefEq.respectTransparency.types false in
/-- The first call, entered from the contents after the host stretch and left with the centre states written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (Vin0 m) c).loose
  hwaits := Pipeline.hwaits_of_owed_zero _ _ _ _ L lv 0 fun _ _ => rfl
  pre c := iprop(StableHlo.held (c : Thread nD τ) (Pipeline.ucRefs τ sig) (Gen.V1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Stage1.inv_in (Vin0 m) c)
    unfold Pipeline.ΦA
    iintro ⟨Hp, -, Hr⟩
    isplitl [Hr]; · iexact Hr
    iexact Hp
  hout c := by
    rw [Pipeline.ownSems0_none]
    refine (Stage1.inv_out (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Gen.V1 m c b) (fun b => W2 m c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered from those contents and left with the result written. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (Vin1 m) c).loose
  hwaits := Pipeline.hwaits_of_owed_zero _ _ _ _ L lv 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => W2 m c b) (fun b => W3 m c b) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- Every weakly fair execution of the program ends, faulting nowhere, with its five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

end Cert.Kernel.Whole

end
-- ==== Proof.KI.Body1.lean ====
/-
  The first call's body on one tile of 512 tokens. It keeps a running [64, 1024] state in a scratch buffer:
  at the first tile of a batch (second grid coordinate 0) it zeroes the scratch, at every tile it adds the tile's
  contribution  affᵀ · v  to it, and at the last tile of the batch (second coordinate 3) it copies the scratch into
  the output's staging buffer. So there are three kinds of point — first, middle, last — and at each the body is run
  once on whole staging memrefs; what it stored into the scratch (and, at a last point, into the output) is found
  by the run as a list of pieces, latest first.
-/
import proofs.«160092_j49744311222296_1_alg».proof.Proof.Gen.KernelIdeal.Launch
import proofs.«160092_j49744311222296_1_alg».proof.Proof.Gen.KernelIdeal.Skeleton
import proofs.«160092_j49744311222296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions the body branches on, from the grid coordinates -/

/-- "This is a batch's first tile": the body's first conditional, the scalar chain it computes from the second coordinate. -/
abbrev isFirst (i : grid0.Coords) : Prop :=
  (Scalar.cmpi .ne (Scalar.extui (Scalar.cmpi .eq (BitVec.ofNat 32 (i 1).val) 0#32)) 0#32) = 1#1
/-- "This is a batch's last tile": the body's second conditional. -/
abbrev isLast (i : grid0.Coords) : Prop := k0_cond2 i = 1#1

/-- The first conditional holds at the points ≡ 0 (mod 4): decided over the 16 points. -/
theorem isFirst_iff : ∀ t : Fin cfg0.N, isFirst (grid0.coords t) ↔ t.val % 4 = 0 :=
  (by decide +kernel : ∀ t : Fin grid0.N, isFirst (grid0.coords t) ↔ t.val % 4 = 0)
/-- The second holds at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## The body at a FIRST point (scratch at anything, output untouched) -/

set_option maxHeartbeats 1000000 in
/-- At a first, not last, point: the inputs at `x0 … x3`, the output's buffer at `y` (the body does not touch it),
    the scratch at anything. The run ends with the inputs and the output as they were and the scratch with the
    pieces `LS` written, which the run finds. -/
noncomputable def runFirst (c : Dev nD) (i : grid0.Coords) (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1024x1024 .bf16) (h3 : a3.IsWhole)
    (a4 : Memref sig .tc .vmem S1x64x1024 .f32) (h4 : a4.IsWhole) (a5 : Memref sig .tc .vmem S64x1024 .f32) (h5 : a5.IsWhole)
    (hf : isFirst i) (hl : ¬isLast i) (x0 : Vec F S1x512x1024 .f32) (x1 : Vec F S64x1024 .f32) (x2 : Vec F S64 .f32) (x3 : Vec F S1024x1024 .bf16) :
    { LS : List (View.Piece (Elt F) S64x1024 .f32) //
      ∀ (y : Vec F S1x64x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y ∗ (∃ d, owns (c : Thread nD τ) a5 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y
                ∗ (∃ f, a5.view.loc (c : Thread nD τ) ↦[a5.view.set]{fullShare} a5.view.writes (Elt F) f LS)) -∗ K ⟨⟩))
          ⊢ wp frame (wpE (defs₀ (F := F)) Variants.none c none) E (cc0__stage1_kernel i a0 h0 a1 h1 a2 h2 a3 h3 a4 h4 a5 h5) K } := by
  refine ⟨?_, fun y E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, H4, ⟨%d5, %f5, -, H5⟩, Hk⟩
    obtain rfl := h0.eq_unread hf0; obtain rfl := h1.eq_unread hf1; obtain rfl := h2.eq_unread hf2; obtain rfl := h3.eq_unread hf3
    sl_exec (disch := first | exact hf | exact hl)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexact H4
    iexists _; iexact H5

/-! ## The body at a MIDDLE point (scratch carried, output untouched) -/

set_option maxHeartbeats 1000000 in
/-- At a point neither first nor last: the scratch comes in at `s`, what the point before left. -/
noncomputable def runMiddle (c : Dev nD) (i : grid0.Coords) (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1024x1024 .bf16) (h3 : a3.IsWhole)
    (a4 : Memref sig .tc .vmem S1x64x1024 .f32) (h4 : a4.IsWhole) (a5 : Memref sig .tc .vmem S64x1024 .f32) (h5 : a5.IsWhole)
    (hf : ¬isFirst i) (hl : ¬isLast i) (x0 : Vec F S1x512x1024 .f32) (x1 : Vec F S64x1024 .f32) (x2 : Vec F S64 .f32) (x3 : Vec F S1024x1024 .bf16) (s : Vec F S64x1024 .f32) :
    { LS : List (View.Piece (Elt F) S64x1024 .f32) //
      ∀ (y : Vec F S1x64x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y ∗ owns (c : Thread nD τ) a5 fullShare s
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y
                ∗ (∃ f, a5.view.loc (c : Thread nD τ) ↦[a5.view.set]{fullShare} a5.view.writes (Elt F) f LS)) -∗ K ⟨⟩))
          ⊢ wp frame (wpE (defs₀ (F := F)) Variants.none c none) E (cc0__stage1_kernel i a0 h0 a1 h1 a2 h2 a3 h3 a4 h4 a5 h5) K } := by
  refine ⟨?_, fun y E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, H4, ⟨%f5, %hf5, H5⟩, Hk⟩
    obtain rfl := h0.eq_unread hf0; obtain rfl := h1.eq_unread hf1; obtain rfl := h2.eq_unread hf2; obtain rfl := h3.eq_unread hf3
    obtain rfl := h5.eq_unread hf5
    sl_exec (disch := first | exact hf | exact hl)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexact H4
    iexists _; iexact H5

/-! ## The body at a LAST point (scratch carried, output stored) -/

set_option maxHeartbeats 1000000 in
/-- At a last, not first, point: the scratch comes in at `s`; the output's buffer, at anything, ends with the pieces
    `LO` written and the scratch with `LS`. -/
noncomputable def runLast (c : Dev nD) (i : grid0.Coords) (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1024x1024 .bf16) (h3 : a3.IsWhole)
    (a4 : Memref sig .tc .vmem S1x64x1024 .f32) (h4 : a4.IsWhole) (a5 : Memref sig .tc .vmem S64x1024 .f32) (h5 : a5.IsWhole)
    (hf : ¬isFirst i) (hl : isLast i) (x0 : Vec F S1x512x1024 .f32) (x1 : Vec F S64x1024 .f32) (x2 : Vec F S64 .f32) (x3 : Vec F S1024x1024 .bf16) (s : Vec F S64x1024 .f32) :
    Σ' (LO : List (View.Piece (Elt F) S1x64x1024 .f32)), { LS : List (View.Piece (Elt F) S64x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) a5 fullShare s
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f LO)
                ∗ (∃ f, a5.view.loc (c : Thread nD τ) ↦[a5.view.set]{fullShare} a5.view.writes (Elt F) f LS)) -∗ K ⟨⟩))
          ⊢ wp frame (wpE (defs₀ (F := F)) Variants.none c none) E (cc0__stage1_kernel i a0 h0 a1 h1 a2 h2 a3 h3 a4 h4 a5 h5) K } := by
  refine ⟨?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := h0.eq_unread hf0; obtain rfl := h1.eq_unread hf1; obtain rfl := h2.eq_unread hf2; obtain rfl := h3.eq_unread hf3
    obtain rfl := h5.eq_unread hf5
    sl_exec (disch := first | exact hf | exact hl)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.KernelIdeal.Stage1

end
-- ==== Proof.KI.Data1.lean ====
/-
  The first call as a pipeline. The scratch buffer carries the batch's running state from tile to tile, so what it
  holds after the body at point n is defined by recursion on n: at a batch's first tile the body's stores over a
  zeroed scratch, at a later tile its stores over what the tile before left. The output's staging buffer is stored
  only at a batch's last tile (it is idle, and not written back, at the others). The invariant between points is the
  scratch at that running contents, beside the other scoped buffers and the generator register, untouched.
  Everything is stated over `V`, the contents of the core's buffers when the call is entered.
-/
import proofs.«160092_j49744311222296_1_alg».proof.Proof.KI.Body1

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from a batch's last tile the body stores nothing into the output's buffer, -/
theorem idle_out : ∀ t : Fin cfg0.N, ¬isLast (grid0.coords t) → cfg0.idle 4 (grid0.coords t) = true := by decide +kernel
/-- and the pipeline does not write the block back there. -/
theorem noflush_out : ∀ t : Fin cfg0.N, ¬isLast (grid0.coords t) → (cfg0.win 4).flush t = false := by decide +kernel
/-- At a batch's last tile it stores the block. -/
theorem live_out : ∀ t : Fin cfg0.N, isLast (grid0.coords t) → cfg0.idle 4 (grid0.coords t) = false := by decide +kernel

/-! ## The memrefs the pipeline calls the body with -/

abbrev m0 (t : Fin cfg0.N) : Memref sig .tc .vmem S1x512x1024 .f32 := win0_0.stage (cfg0.slots t 0)
abbrev hm0 (t : Fin cfg0.N) : (m0 t).IsWhole := hstage0_0 ((cfg0.slots t 0).cast nbuf0_0)
abbrev m1 (t : Fin cfg0.N) : Memref sig .tc .vmem S64x1024 .f32 := win0_1.stage (cfg0.slots t 1)
abbrev hm1 (t : Fin cfg0.N) : (m1 t).IsWhole := hstage0_1 ((cfg0.slots t 1).cast nbuf0_1)
abbrev m2 (t : Fin cfg0.N) : Memref sig .tc .vmem S64 .f32 := win0_2.stage (cfg0.slots t 2)
abbrev hm2 (t : Fin cfg0.N) : (m2 t).IsWhole := hstage0_2 ((cfg0.slots t 2).cast nbuf0_2)
abbrev m3 (t : Fin cfg0.N) : Memref sig .tc .vmem S1024x1024 .bf16 := win0_3.stage (cfg0.slots t 3)
abbrev hm3 (t : Fin cfg0.N) : (m3 t).IsWhole := hstage0_3 ((cfg0.slots t 3).cast nbuf0_3)
abbrev m4 (t : Fin cfg0.N) : Memref sig .tc .vmem S1x64x1024 .f32 := win0_4.stage (cfg0.slots t 4)
abbrev hm4 (t : Fin cfg0.N) : (m4 t).IsWhole := hstage0_4 ((cfg0.slots t 4).cast nbuf0_4)
/-- The scratch: a whole scoped buffer of the kernel's own. -/
abbrev scr : Memref sig .tc .vmem S64x1024 .f32 := Memref.whole cc0_scratch0
/-- The views through which the scratch's and the output buffer's contents are stated (which buffer does not matter once
    the pieces cover the shape). -/
abbrev vScr : View sig .tc .vmem S64x1024 .f32 := scr.view
abbrev vOut : View sig .tc .vmem S1x64x1024 .f32 := (Memref.whole cc0_stg4_0 : Memref sig .tc .vmem S1x64x1024 .f32).view

/-! ## What each kind of point leaves -/

/-- The scratch after a first point: the run's pieces read back. -/
def scrFirst (c : Dev nD) (t : Fin cfg0.N) (hf : isFirst (grid0.coords t)) (hl : ¬isLast (grid0.coords t)) : Vec F S64x1024 .f32 :=
  vScr.read (Elt F) (vScr.writes (Elt F) vScr.junk (runFirst c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t)).1)
theorem scrFirst_cover (c : Dev nD) (t : Fin cfg0.N) (hf : isFirst (grid0.coords t)) (hl : ¬isLast (grid0.coords t)) (y : S64x1024.Idx) :
    ∃ pc ∈ (runFirst c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t)).1, y ∈ pc.1.set :=
  View.cover_of_tiledL (runFirst c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t)).1 S64x1024.size (by sl_kernel_rfl) y

/-- The scratch after a middle point that found it at `s`. -/
def scrMiddle (c : Dev nD) (t : Fin cfg0.N) (hf : ¬isFirst (grid0.coords t)) (hl : ¬isLast (grid0.coords t)) (s : Vec F S64x1024 .f32) : Vec F S64x1024 .f32 :=
  vScr.read (Elt F) (vScr.writes (Elt F) vScr.junk (runMiddle c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1)
theorem scrMiddle_cover (c : Dev nD) (t : Fin cfg0.N) (hf : ¬isFirst (grid0.coords t)) (hl : ¬isLast (grid0.coords t)) (s : Vec F S64x1024 .f32) (y : S64x1024.Idx) :
    ∃ pc ∈ (runMiddle c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1, y ∈ pc.1.set :=
  View.cover_of_tiledL (runMiddle c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1 S64x1024.size (by sl_kernel_rfl) y

/-- The scratch after a last point that found it at `s`, -/
def scrLast (c : Dev nD) (t : Fin cfg0.N) (hf : ¬isFirst (grid0.coords t)) (hl : isLast (grid0.coords t)) (s : Vec F S64x1024 .f32) : Vec F S64x1024 .f32 :=
  vScr.read (Elt F) (vScr.writes (Elt F) vScr.junk (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).2.1)
theorem scrLast_cover (c : Dev nD) (t : Fin cfg0.N) (hf : ¬isFirst (grid0.coords t)) (hl : isLast (grid0.coords t)) (s : Vec F S64x1024 .f32) (y : S64x1024.Idx) :
    ∃ pc ∈ (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).2.1, y ∈ pc.1.set :=
  View.cover_of_tiledL (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).2.1 S64x1024.size (by sl_kernel_rfl) y
/-- and the output's staging buffer after it. -/
def outLast (c : Dev nD) (t : Fin cfg0.N) (hf : ¬isFirst (grid0.coords t)) (hl : isLast (grid0.coords t)) (s : Vec F S64x1024 .f32) : Vec F S1x64x1024 .f32 :=
  vOut.read (Elt F) (vOut.writes (Elt F) vOut.junk (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1)
theorem outLast_cover (c : Dev nD) (t : Fin cfg0.N) (hf : ¬isFirst (grid0.coords t)) (hl : isLast (grid0.coords t)) (s : Vec F S64x1024 .f32) (y : S1x64x1024.Idx) :
    ∃ pc ∈ (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1, y ∈ pc.1.set :=
  View.cover_of_tiledL (runLast c (grid0.coords t) (m0 t) (hm0 t) (m1 t) (hm1 t) (m2 t) (hm2 t) (m3 t) (hm3 t) (m4 t) (hm4 t) scr (Memref.isWhole_whole _) hf hl (blk V c 0 t) (blk V c 1 t) (blk V c 2 t) (blk V c 3 t) s).1 S1x64x1024.size (by sl_kernel_rfl) y

/-! ## The running state -/

theorem not_last_of_first (t : Fin cfg0.N) (h : t.val % 4 = 0) : ¬isLast (grid0.coords t) :=
  fun hl => by have := (isLast_iff t).mp hl; omega

/-- THE ACCUMULATION: what the scratch holds after the body at position `n`. At a batch's first tile the body's stores
    (it zeroes the scratch first); at a later tile its stores over what position `n - 1` left. -/
def scrAt (c : Dev nD) : (n : ℕ) → n < cfg0.N → Vec F S64x1024 .f32
  | 0, hn => scrFirst V c ⟨0, hn⟩ ((isFirst_iff ⟨0, hn⟩).mpr (Nat.zero_mod _)) (not_last_of_first ⟨0, hn⟩ (Nat.zero_mod _))
  | n + 1, hn =>
    if h0 : (n + 1) % 4 = 0 then
      scrFirst V c ⟨n + 1, hn⟩ ((isFirst_iff ⟨n + 1, hn⟩).mpr h0) (not_last_of_first ⟨n + 1, hn⟩ h0)
    else if h1 : (n + 1) % 4 = 3 then
      scrLast V c ⟨n + 1, hn⟩ (fun h => h0 ((isFirst_iff ⟨n + 1, hn⟩).mp h)) ((isLast_iff ⟨n + 1, hn⟩).mpr h1) (scrAt c n (Nat.lt_of_succ_lt hn))
    else
      scrMiddle V c ⟨n + 1, hn⟩ (fun h => h0 ((isFirst_iff ⟨n + 1, hn⟩).mp h)) (fun h => h1 ((isLast_iff ⟨n + 1, hn⟩).mp h)) (scrAt c n (Nat.lt_of_succ_lt hn))

theorem scrAt_first (c : Dev nD) (t : Fin cfg0.N) (h0 : t.val % 4 = 0) :
    scrAt V c t.val t.isLt = scrFirst V c t ((isFirst_iff t).mpr h0) (not_last_of_first t h0) := by
  obtain ⟨n, hn⟩ := t
  cases n with
  | zero => rfl
  | succ n => exact (dif_pos h0).trans rfl

theorem scrAt_last (c : Dev nD) (t : Fin cfg0.N) (h0 : ¬t.val % 4 = 0) (h1 : t.val % 4 = 3) :
    scrAt V c t.val t.isLt = scrLast V c t (fun h => h0 ((isFirst_iff t).mp h)) ((isLast_iff t).mpr h1)
      (scrAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem scrAt_middle (c : Dev nD) (t : Fin cfg0.N) (h0 : ¬t.val % 4 = 0) (h1 : ¬t.val % 4 = 3) :
    scrAt V c t.val t.isLt = scrMiddle V c t (fun h => h0 ((isFirst_iff t).mp h)) (fun h => h1 ((isLast_iff t).mp h))
      (scrAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- What the output's staging buffer holds after the body at point `t`: at a batch's last tile the body's store over the
    running state; elsewhere a placeholder nothing consults (the window is idle there and not written back). -/
def outAt (c : Dev nD) (t : Fin cfg0.N) : Vec F S1x64x1024 .f32 :=
  if h1 : t.val % 4 = 3 then
    outLast V c t (fun h => by have := (isFirst_iff t).mp h; omega) ((isLast_iff t).mpr h1)
      (scrAt V c (t.val - 1) (Nat.lt_of_le_of_lt (Nat.sub_le _ _) t.isLt))
  else vOut.read (Elt F) vOut.junk

/-! ## The invariant between points -/

/-- The scoped buffers no window of this call stages, other than the scratch: the other call's nine staging buffers,
    each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the call: the scratch at anything, the others, the generator register at some state. -/
theorem PhiA_eq (c : Dev nD) :
    (Pipeline.ΦA spec0 c : sProp 𝕄) = iprop(((∃ d, owns (c : Thread nD τ) scr fullShare d) ∗ others c) ∗ (∃ r, prngReg c r)) := by
  unfold Pipeline.ΦA others; rw [scopedRest0_eq]; simp only [scr, owns_whole]; try rfl

/-- The invariant before position `n`: before the first point what the launch hands over; afterwards the scratch at
    what position `n - 1` left. -/
def Inv (c : Dev nD) : (n : ℕ) → n ≤ cfg0.N → sProp 𝕄
  | 0, _ => Pipeline.ΦA spec0 c
  | n + 1, hn => iprop((owns (c : Thread nD τ) scr fullShare (scrAt V c n hn) ∗ others c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop((owns (c : Thread nD τ) scr fullShare (scrAt V c n hn) ∗ others c) ∗ (∃ r, prngReg c r)) := rfl
theorem Inv_pos (c : Dev nD) (n : ℕ) (h : n ≤ cfg0.N) (hz : n ≠ 0) :
    Inv V c n h = iprop((owns (c : Thread nD τ) scr fullShare (scrAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => outAt V c t
  Φ t := Inv V c t.val (Nat.le_of_lt_succ t.isLt)
  q _ := fullShare
  owed _ := 0

theorem dat_A (c : Dev nD) (w : Fin cfg0.W) : (dat V c).A w = V c (Pipeline.arrRef spec0 w) := by
  dsimp only [dat]
theorem Inv_castSucc (c : Dev nD) (t : Fin cfg0.N) : (dat V c).Φ t.castSucc = Inv V c t.val (Nat.le_of_lt t.isLt) := by
  dsimp only [dat]; simp only [Fin.coe_castSucc]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = outAt V c t := by dsimp only [dat]

theorem before0 (c : Dev nD) (t : Fin cfg0.N) (d) : (dat V c).before 0 t d = blk V c 0 t :=
  before_in0 V (dat V c) (dat_A V c 0) (after0 V c) t d
theorem before1 (c : Dev nD) (t : Fin cfg0.N) (d) : (dat V c).before 1 t d = blk V c 1 t :=
  before_in1 V (dat V c) (dat_A V c 1) (after1 V c) t d
theorem before2 (c : Dev nD) (t : Fin cfg0.N) (d) : (dat V c).before 2 t d = blk V c 2 t :=
  before_in2 V (dat V c) (dat_A V c 2) (after2 V c) t d
theorem before3 (c : Dev nD) (t : Fin cfg0.N) (d) : (dat V c).before 3 t d = blk V c 3 t :=
  before_in3 V (dat V c) (dat_A V c 3) (after3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (m0 t) fullShare ((dat V c).before 0 t d))
    ∗ (∃ d, owns (c : Thread nD τ) (m1 t) fullShare ((dat V c).before 1 t d))
    ∗ (∃ d, owns (c : Thread nD τ) (m2 t) fullShare ((dat V c).before 2 t d))
    ∗ (∃ d, owns (c : Thread nD τ) (m3 t) fullShare ((dat V c).before 3 t d))
    ∗ (∃ d, owns (c : Thread nD τ) (m4 t) fullShare ((dat V c).before 4 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point, by the kind of point: the inputs' memrefs hold their blocks; the invariant hands over the scratch
    at what the point before left (at anything before the first point) and takes it back at this point's contents; at a
    batch's last tile the output's buffer is handed back with the body's store, elsewhere as it was found. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = Inv V c (t.val + 1) t.isLt from rfl, Inv_succ]
  have hN : t.val < 16 := lt_of_lt_of_eq t.isLt (show cfg0.N = 16 from N_0)
  rw [show (dat V c).leavesExact 0 t = owns (c : Thread nD τ) (m0 t) fullShare ((dat V c).after 0 t) from by
      unfold Dat.leavesExact; rw [live0 t], after0,
    show (dat V c).leavesExact 1 t = owns (c : Thread nD τ) (m1 t) fullShare ((dat V c).after 1 t) from by
      unfold Dat.leavesExact; rw [live1 t], after1,
    show (dat V c).leavesExact 2 t = owns (c : Thread nD τ) (m2 t) fullShare ((dat V c).after 2 t) from by
      unfold Dat.leavesExact; rw [live2 t], after2,
    show (dat V c).leavesExact 3 t = owns (c : Thread nD τ) (m3 t) fullShare ((dat V c).after 3 t) from by
      unfold Dat.leavesExact; rw [live3 t], after3]
  by_cases h0 : t.val % 4 = 0
  · -- a batch's first tile
    have hl : ¬isLast (grid0.coords t) := not_last_of_first t h0
    rw [Dat.leavesExact_idle (dat V c) 4 t (idle_out t hl) (noflush_out t hl), scrAt_first V c t h0]
    unfold scrFirst
    by_cases hz : t.val = 0
    · rw [Inv_castSucc V c t, Inv_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((isFirst_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scrFirst_cover V c t _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((isFirst_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scrFirst_cover V c t _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · -- a batch's last tile
      have hf : ¬isFirst (grid0.coords t) := fun h => h0 ((isFirst_iff t).mp h)
      have hl : isLast (grid0.coords t) := (isLast_iff t).mpr h1
      rw [show (dat V c).leavesExact 4 t = owns (c : Thread nD τ) (m4 t) fullShare ((dat V c).after 4 t) from by
        unfold Dat.leavesExact; rw [live_out t hl], after4]
      rw [scrAt_last V c t h0 h1, show outAt V c t = outLast V c t (fun h => by have := (isFirst_iff t).mp h; omega) hl
        (scrAt V c (t.val - 1) (Nat.lt_of_le_of_lt (Nat.sub_le _ _) t.isLt)) from dif_pos h1]
      unfold scrLast outLast
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hf hl (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scrLast_cover V c t _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast_cover V c t _ _ _)
    · -- a middle tile
      have hf : ¬isFirst (grid0.coords t) := fun h => h0 ((isFirst_iff t).mp h)
      have hl : ¬isLast (grid0.coords t) := fun h => h1 ((isLast_iff t).mp h)
      rw [Dat.leavesExact_idle (dat V c) 4 t (idle_out t hl) (noflush_out t hl), scrAt_middle V c t h0 h1]
      unfold scrMiddle
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ hf hl (blk V c 0 t) (blk V c 1 t) (blk V c 2 t) (blk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scrMiddle_cover V c t _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact body_at V c t

/-- What the launch hands the call is the invariant before the first point. -/
theorem inv_in (c : Dev nD) : Pipeline.ΦA spec0 c ⊢ (dat V c).Φ 0 := by
  rw [show (dat V c).Φ 0 = Inv V c 0 (Nat.zero_le _) from rfl, Inv_zero V c 0 _ rfl]
  try exact Idealize.SL.BI.Entails.refl _

/-- After the last point the invariant gives it back: the scratch's named contents are forgotten. -/
theorem inv_out (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl,
    Inv_pos V c _ _ (by rw [Fin.val_last]; have : cfg0.N = 16 := N_0; omega), PhiA_eq]
  iintro ⟨⟨HS, Hoth⟩, Hg⟩
  isplitl [HS Hoth]
  · isplitl [HS]
    · iexists _; iexact HS
    iexact Hoth
  iexact Hg

end Cert.KernelIdeal.Stage1

end
-- ==== Proof.KI.Body2.lean ====
/-
  The second call's body on one tile of 512 tokens: it reads the tile, the centres, the log-scales, the batch's
  64 centre states and the output weights, and stores ONE whole block: each token's affinities times the states,
  times the weights. Nothing is kept between grid points and every buffer is read or written whole, so what the
  body leaves in the output's staging buffer is one function of the five blocks it was handed.
-/
import proofs.«160092_j49744311222296_1_alg».proof.Proof.Gen.KernelIdeal.Launch
import proofs.«160092_j49744311222296_1_alg».proof.Proof.Gen.KernelIdeal.Skeleton
import proofs.«160092_j49744311222296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rTok : Rect S1x512x1024 := Rect.unit (s := S1x512x1024) ![0, 0, 0] S1x512x1024.size inb_S1x512x1024_S1x512x1024_0_0_0
abbrev rCtr : Rect S64x1024 := Rect.unit (s := S64x1024) ![0, 0] S64x1024.size inb_S64x1024_S64x1024_0_0
abbrev rLs : Rect S64 := Rect.unit (s := S64) ![0] S64.size inb_S64_S64_0
abbrev rSt : Rect S1x64x1024 := Rect.unit (s := S1x64x1024) ![0, 0, 0] S1x64x1024.size inb_S1x64x1024_S1x64x1024_0_0_0
abbrev rW : Rect S1024x1024 := Rect.unit (s := S1024x1024) ![0, 0] S1024x1024.size inb_S1024x1024_S1024x1024_0_0

/-- What the body leaves in the output's staging buffer, from the five blocks it read: its one store. -/
def tileOut (x0 : Vec F S1x512x1024 .f32) (x1 : Vec F S64x1024 .f32) (x2 : Vec F S64 .f32) (x3 : Vec F S1x64x1024 .f32)
    (x4 : Vec F S1024x1024 .bf16) : Vec F S1x512x1024 .f32 :=
  View.canon [⟨rTok, k1_pay1 (k1_pay2 (View.ld x3 rSt)) (k1_pay3 (View.ld x4 rW)) (k1_pay4 (View.ld x0 rTok) (View.ld x1 rCtr) (View.ld x2 rLs))
    (k1_pay5 (View.ld x0 rTok) (View.ld x1 rCtr) (View.ld x2 rLs)) (k1_pay6 (F := F))⟩]

/-- The one store is through the whole block, so it covers it. -/
theorem tileOut_cover (p0 : Vec F S1x512x1024 .f32) (y : S1x512x1024.Idx) :
    ∃ pc ∈ ([⟨rTok, p0⟩] : List (View.Piece (Elt F) S1x512x1024 .f32)), y ∈ pc.1.set :=
  View.cover_of_tiled [⟨rTok, p0⟩] S1x512x1024.size (by rfl) y

set_option maxHeartbeats 1000000 in
/-- The body on whole staging memrefs, the five inputs at contents `x0 … x4` and the output at anything, runs to the
    continuation with the inputs as they were and the output at `tileOut`. -/
theorem body_runs (c : Dev nD) (E : Set ℕ) (i : grid1.Coords)
    (a0 : Memref sig .tc .vmem S1x512x1024 .f32) (h0 : a0.IsWhole) (a1 : Memref sig .tc .vmem S64x1024 .f32) (h1 : a1.IsWhole)
    (a2 : Memref sig .tc .vmem S64 .f32) (h2 : a2.IsWhole) (a3 : Memref sig .tc .vmem S1x64x1024 .f32) (h3 : a3.IsWhole)
    (a4 : Memref sig .tc .vmem S1024x1024 .bf16) (h4 : a4.IsWhole) (a5 : Memref sig .tc .vmem S1x512x1024 .f32) (h5 : a5.IsWhole)
    (x0 : Vec F S1x512x1024 .f32) (x1 : Vec F S64x1024 .f32) (x2 : Vec F S64 .f32) (x3 : Vec F S1x64x1024 .f32) (x4 : Vec F S1024x1024 .bf16)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (tileOut x0 x1 x2 x3 x4)) -∗ K ⟨⟩))
      ⊢ wp frame (wpE (defs₀ (F := F)) Variants.none c none) E (cc1__stage2_kernel i a0 h0 a1 h1 a2 h2 a3 h3 a4 h4 a5 h5) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_cover _)

end Cert.KernelIdeal.Stage2

end
-- ==== Proof.KI.Data2.lean ====
/-
  The second call as a pipeline: what each window's staging buffer holds after the body at each grid point.
  Every input window keeps its block; the output window holds the body's one store of the five input blocks.
  Everything is stated over `V`, the contents of the core's buffers when the call is entered.
-/
import proofs.«160092_j49744311222296_1_alg».proof.Proof.KI.Body2

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before. -/
theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not: where it is not
    fetched its block index has not moved since the point before. -/
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not: where it is not
    fetched its block index has not moved since the point before. -/
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not: where it is not
    fetched its block index has not moved since the point before. -/
theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not: where it is not
    fetched its block index has not moved since the point before. -/
theorem before_in4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of the second call on core `c`: the arrays as the call finds them; after the body each input's
    buffer at its block and the output's at the body's store of the five blocks; nothing kept between points beyond
    the scoped buffers no window stages and the generator register; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => tileOut (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) :
    (dat V c).after 5 t = tileOut (blk V c 0 t) (blk V c 1 t) (blk V c 2 t) (blk V c 3 t) (blk V c 4 t) := by dsimp only [dat]

theorem before0 (c : Dev nD) (t : Fin cfg1.N) (d) : (dat V c).before 0 t d = blk V c 0 t :=
  before_in0 V (dat V c) (dat_A V c 0) (after0 V c) t d
theorem before1 (c : Dev nD) (t : Fin cfg1.N) (d) : (dat V c).before 1 t d = blk V c 1 t :=
  before_in1 V (dat V c) (dat_A V c 1) (after1 V c) t d
theorem before2 (c : Dev nD) (t : Fin cfg1.N) (d) : (dat V c).before 2 t d = blk V c 2 t :=
  before_in2 V (dat V c) (dat_A V c 2) (after2 V c) t d
theorem before3 (c : Dev nD) (t : Fin cfg1.N) (d) : (dat V c).before 3 t d = blk V c 3 t :=
  before_in3 V (dat V c) (dat_A V c 3) (after3 V c) t d
theorem before4 (c : Dev nD) (t : Fin cfg1.N) (d) : (dat V c).before 4 t d = blk V c 4 t :=
  before_in4 V (dat V c) (dat_A V c 4) (after4 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's run applies; the invariant and the
    core's dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.KernelIdeal.Stage2

end
-- ==== Proof.KI.Whole.lean ====
/-
  The whole program: a stretch of two host operations (the two weight matrices cast to bf16), the first call, the
  second call. Between two items core c holds every unscoped buffer whole, at contents named here: at launch the
  memory; after the host stretch its two results added; after the first call the centre states main_v2 at what that
  call's write-backs leave; after the second call the result main_v3 likewise. Each call is entered from those
  contents: its arrays are split out of the unscoped buffers, the pipeline runs over the body obligation, and the arrays
  are put back at what the write-backs left. The frame then follows from the generated conditional frame.
-/
import proofs.«160092_j49744311222296_1_alg».proof.Proof.KI.Data1
import proofs.«160092_j49744311222296_1_alg».proof.Proof.KI.Data2
import proofs.«160092_j49744311222296_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents between items -/

/-- What the first call is entered with: the launch memory after the host stretch. -/
abbrev Vin0 (c : Dev nD) (b : Ref sig .tc) : Buf (Elt F) ((c : Thread nD τ).loc b) := Gen.V1 m c b
/-- The centre states as the first call's write-backs leave them. -/
def states (c : Dev nD) : Buf (Elt F) ((c : Thread nD τ).loc main_v2) := (Stage1.dat (Vin0 m) c).arrAt 4 cfg0.N
/-- After the first call: only main_v2 has changed. -/
def W2 (c : Dev nD) : Valuation τ sig (Elt F) := Function.update (Gen.V1 m c) main_v2 (states m c)
/-- What the second call is entered with. -/
abbrev Vin1 (c : Dev nD) (b : Ref sig .tc) : Buf (Elt F) ((c : Thread nD τ).loc b) := W2 m c b
/-- The result as the second call's write-backs leave it. -/
def result (c : Dev nD) : Buf (Elt F) ((c : Thread nD τ).loc main_v3) := (Stage2.dat (Vin1 m) c).arrAt 5 cfg1.N
/-- After the second call: only main_v3 has changed. -/
def W3 (c : Dev nD) : Valuation τ sig (Elt F) := Function.update (W2 m c) main_v3 (result m c)

/-- The contents the two calls leave, in the form the generated conditional frame is stated over. -/
def outs : Gen.Outs (F := F) := fun _ r c =>
  if h : r = main_v2 then h ▸ states m c else if h' : r = main_v3 then h' ▸ result m c else Gen.V1 m c r

theorem outs_states (j : ℕ) (c : Dev nD) : outs m j main_v2 c = states m c := by
  unfold outs; rw [dif_pos rfl]
theorem outs_result (j : ℕ) (c : Dev nD) : outs m j main_v3 c = result m c := by
  unfold outs; rw [dif_neg (by decide), dif_pos rfl]
theorem V2_eq (c : Dev nD) : Gen.V2 m (outs m) c = W2 m c := by
  show Function.update (Gen.V1 m c) main_v2 (outs m 2 main_v2 c) = _
  rw [outs_states]; rfl
theorem V3_eq (c : Dev nD) : Gen.V3 m (outs m) c = W3 m c := by
  show Function.update (Gen.V2 m (outs m) c) main_v3 (outs m 3 main_v3 c) = _
  rw [outs_result, V2_eq]; rfl

/-- The first call changes main_v2 only, -/
theorem W2_of_ne (c : Dev nD) (b : Ref sig .tc) (h : b ≠ main_v2) : W2 m c b = Gen.V1 m c b :=
  Function.update_of_ne (StableHlo.devRef_ne_of_ne h : (Proc.devRef .tc b : DevRef τ sig) ≠ Proc.devRef .tc main_v2) _ _
theorem W2_self (c : Dev nD) : W2 m c main_v2 = states m c := Function.update_self _ _ _
/-- and the second main_v3 only. -/
theorem W3_of_ne (c : Dev nD) (b : Ref sig .tc) (h : b ≠ main_v3) : W3 m c b = W2 m c b :=
  Function.update_of_ne (StableHlo.devRef_ne_of_ne h : (Proc.devRef .tc b : DevRef τ sig) ≠ Proc.devRef .tc main_v3) _ _
theorem W3_self (c : Dev nD) : W3 m c main_v3 = result m c := Function.update_self _ _ _

/-! ## Each call's arrays at its exit -/

theorem exit0 (c : Dev nD) (w : Fin cfg0.W) : (Stage1.dat (Vin0 m) c).arrAt w cfg0.N = W2 m c (Pipeline.arrRef spec0 w) := by
  match w with
  | ⟨0, _⟩ => exact ((Stage1.dat (Vin0 m) c).arrAt_in 0 rfl _).trans ((Stage1.dat_A (Vin0 m) c 0).trans (W2_of_ne m c (Pipeline.arrRef spec0 0) (by decide)).symm)
  | ⟨1, _⟩ => exact ((Stage1.dat (Vin0 m) c).arrAt_in 1 rfl _).trans ((Stage1.dat_A (Vin0 m) c 1).trans (W2_of_ne m c (Pipeline.arrRef spec0 1) (by decide)).symm)
  | ⟨2, _⟩ => exact ((Stage1.dat (Vin0 m) c).arrAt_in 2 rfl _).trans ((Stage1.dat_A (Vin0 m) c 2).trans (W2_of_ne m c (Pipeline.arrRef spec0 2) (by decide)).symm)
  | ⟨3, _⟩ => exact ((Stage1.dat (Vin0 m) c).arrAt_in 3 rfl _).trans ((Stage1.dat_A (Vin0 m) c 3).trans (W2_of_ne m c (Pipeline.arrRef spec0 3) (by decide)).symm)
  | ⟨4, _⟩ => exact (W2_self m c).symm
theorem rest0 (c : Dev nD) : ∀ b, b ∉ Finset.univ.image (Pipeline.arrRef spec0) → W2 m c b = Gen.V1 m c b := fun b hb =>
  W2_of_ne m c b fun e => hb (Finset.mem_image.mpr ⟨4, Finset.mem_univ _, e.symm⟩)

theorem exit1 (c : Dev nD) (w : Fin cfg1.W) : (Stage2.dat (Vin1 m) c).arrAt w cfg1.N = W3 m c (Pipeline.arrRef spec1 w) := by
  match w with
  | ⟨0, _⟩ => exact ((Stage2.dat (Vin1 m) c).arrAt_in 0 rfl _).trans ((Stage2.dat_A (Vin1 m) c 0).trans (W3_of_ne m c (Pipeline.arrRef spec1 0) (by decide)).symm)
  | ⟨1, _⟩ => exact ((Stage2.dat (Vin1 m) c).arrAt_in 1 rfl _).trans ((Stage2.dat_A (Vin1 m) c 1).trans (W3_of_ne m c (Pipeline.arrRef spec1 1) (by decide)).symm)
  | ⟨2, _⟩ => exact ((Stage2.dat (Vin1 m) c).arrAt_in 2 rfl _).trans ((Stage2.dat_A (Vin1 m) c 2).trans (W3_of_ne m c (Pipeline.arrRef spec1 2) (by decide)).symm)
  | ⟨3, _⟩ => exact ((Stage2.dat (Vin1 m) c).arrAt_in 3 rfl _).trans ((Stage2.dat_A (Vin1 m) c 3).trans (W3_of_ne m c (Pipeline.arrRef spec1 3) (by decide)).symm)
  | ⟨4, _⟩ => exact ((Stage2.dat (Vin1 m) c).arrAt_in 4 rfl _).trans ((Stage2.dat_A (Vin1 m) c 4).trans (W3_of_ne m c (Pipeline.arrRef spec1 4) (by decide)).symm)
  | ⟨5, _⟩ => exact (W3_self m c).symm
theorem rest1 (c : Dev nD) : ∀ b, b ∉ Finset.univ.image (Pipeline.arrRef spec1) → W3 m c b = W2 m c b := fun b hb =>
  W3_of_ne m c b fun e => hb (Finset.mem_image.mpr ⟨5, Finset.mem_univ _, e.symm⟩)

/-! ## The proof data family and what rides beside the buffers -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => Stage1.dat (Vin0 m) c
  | ⟨1, _⟩ => fun c => Stage2.dat (Vin1 m) c
abbrev 𝒱₀ : Variants := Variants.none
/-- No core owes another anything. -/
abbrev L : GSem nD τ sig → Finset Unit := fun _ => ∅
abbrev lv : GSem nD τ sig → Unit → ℕ := fun _ _ => 0
/-- Beside the buffers through every item: the generator register at some state and the core owing nothing. -/
abbrev Rest (c : Dev nD) : sProp 𝕄 := iprop((∃ r, prngReg c r) ∗ ∃ W, owes (c : Thread nD τ) (0 : CellTallies nD τ sig Unit) W)

/-! ## The two calls as region records -/

set_option backward.isDefEq.respectTransparency.types false in
/-- The first call, entered from the contents after the host stretch and left with the centre states written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (Vin0 m) c).loose
  hwaits := Pipeline.hwaits_of_owed_zero _ _ _ _ L lv 0 fun _ _ => rfl
  pre c := iprop(StableHlo.held (c : Thread nD τ) (Pipeline.ucRefs τ sig) (Gen.V1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Stage1.inv_in (Vin0 m) c)
    unfold Pipeline.ΦA
    iintro ⟨Hp, -, Hr⟩
    isplitl [Hr]; · iexact Hr
    iexact Hp
  hout c := by
    rw [Pipeline.ownSems0_none]
    refine (Stage1.inv_out (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Gen.V1 m c b) (fun b => W2 m c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered from those contents and left with the result written. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (Vin1 m) c).loose
  hwaits := Pipeline.hwaits_of_owed_zero _ _ _ _ L lv 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => W2 m c b) (fun b => W3 m c b) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- Every weakly fair execution of the program ends, faulting nowhere, with its five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

end Cert.KernelIdeal.Whole

end
-- ==== Proof.KI.Named.lean ====
/-
  The run with the result named: every weakly fair execution of the program ends, faulting nowhere, with the result
  array main_v3 at what the second call's write-backs leave and the five arguments as launched. The last thread state
  holds every unscoped buffer at the contents after the second call, so each array is read off a final memory there.
-/
import proofs.«160092_j49744311222296_1_alg».proof.Proof.KI.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The program's three items as segments: the host stretch from the launch contents, then the two calls. -/
abbrev items : List (Pipeline.Seg (pcfgs (F := F)) adm (pdats m) () defs₀ 𝒱₀ L lv) :=
  [.host (Gen.seg0 m 𝒱₀ L lv (fun _ c => Rest c)), .region (reg0 m), .region (reg1 m)]

/-- The program IS the run of those items. -/
theorem main_items (c : Dev nD) : main (F := F) c = Pipeline.Seg.run (items m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: each reaches the end as launched. -/
theorem W3_arg0 (c : Dev nD) : W3 m c main_arg0 = m ((c : Thread nD τ).loc main_arg0) := by
  rw [← V3_eq]; exact Gen.V3_main_arg0 m (outs m) c
theorem W3_arg1 (c : Dev nD) : W3 m c main_arg1 = m ((c : Thread nD τ).loc main_arg1) := by
  rw [← V3_eq]; exact Gen.V3_main_arg1 m (outs m) c
theorem W3_arg2 (c : Dev nD) : W3 m c main_arg2 = m ((c : Thread nD τ).loc main_arg2) := by
  rw [← V3_eq]; exact Gen.V3_main_arg2 m (outs m) c
theorem W3_arg3 (c : Dev nD) : W3 m c main_arg3 = m ((c : Thread nD τ).loc main_arg3) := by
  rw [← V3_eq]; exact Gen.V3_main_arg3 m (outs m) c
theorem W3_arg4 (c : Dev nD) : W3 m c main_arg4 = m ((c : Thread nD τ).loc main_arg4) := by
  rw [← V3_eq]; exact Gen.V3_main_arg4 m (outs m) c

set_option backward.isDefEq.respectTransparency.types false in
/-- The run, with the result array named. -/
theorem run (ρ : Dev nD → PrngReg) :
    θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      show iprop(StableHlo.held (c : Thread nD τ) (Pipeline.ucRefs τ sig) (W3 m c) ∗ Rest c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_self m c),
       (h c _ (mem_uc main_arg0 (by decide))).trans (W3_arg0 m c),
       (h c _ (mem_uc main_arg1 (by decide))).trans (W3_arg1 m c),
       (h c _ (mem_uc main_arg2 (by decide))).trans (W3_arg2 m c),
       (h c _ (mem_uc main_arg3 (by decide))).trans (W3_arg3 m c),
       (h c _ (mem_uc main_arg4 (by decide))).trans (W3_arg4 m c)⟩)

end Cert.KernelIdeal.Whole

end
-- ==== Proof.KI.Entry.lean ====
/-
  What the two calls are entered with, at the ideal instance. The host stretch only casts the two weight matrices to
  bf16, which on the extended reals is the identity: the first call sees w_value as its fourth operand, the second
  sees w_out as its fifth; the three other arguments reach both calls as launched, and the second call sees the centre
  states the first one wrote.
-/
import proofs.«160092_j49744311222296_1_alg».proof.Proof.KI.Named
import Idealize.ShloMosaic.Lib.StableHlo.Run
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## After the host stretch -/

theorem V1_arg0 (c : Dev nD) : Gen.V1 m c main_arg0 = m ((c : Thread nD τ).loc main_arg0) := Gen.V1_of m c main_arg0 (by decide)
theorem V1_arg1 (c : Dev nD) : Gen.V1 m c main_arg1 = m ((c : Thread nD τ).loc main_arg1) := Gen.V1_of m c main_arg1 (by decide)
theorem V1_arg2 (c : Dev nD) : Gen.V1 m c main_arg2 = m ((c : Thread nD τ).loc main_arg2) := Gen.V1_of m c main_arg2 (by decide)

/-- The bf16 copy of w_value is w_value: a change of float format is the identity on the extended reals. -/
theorem V1_v0 (c : Dev nD) : (Gen.V1 m c main_v0 : S1024x1024.Idx → EReal) = m ((c : Thread nD τ).loc main_arg3) := by
  dsimp only [Gen.V1, Gen.V0, Gen.hostOps0]
  after_results
  rfl
/-- Likewise w_out. -/
theorem V1_v1 (c : Dev nD) : (Gen.V1 m c main_v1 : S1024x1024.Idx → EReal) = m ((c : Thread nD τ).loc main_arg4) := by
  dsimp only [Gen.V1, Gen.V0, Gen.hostOps0]
  after_results
  rfl

/-! ## After the first call -/

theorem W2_arg0 (c : Dev nD) : W2 m c main_arg0 = m ((c : Thread nD τ).loc main_arg0) := (W2_of_ne m c main_arg0 (by decide)).trans (V1_arg0 m c)
theorem W2_arg1 (c : Dev nD) : W2 m c main_arg1 = m ((c : Thread nD τ).loc main_arg1) := (W2_of_ne m c main_arg1 (by decide)).trans (V1_arg1 m c)
theorem W2_arg2 (c : Dev nD) : W2 m c main_arg2 = m ((c : Thread nD τ).loc main_arg2) := (W2_of_ne m c main_arg2 (by decide)).trans (V1_arg2 m c)
theorem W2_v1 (c : Dev nD) : (W2 m c main_v1 : S1024x1024.Idx → EReal) = m ((c : Thread nD τ).loc main_arg4) :=
  (W2_of_ne m c main_v1 (by decide)).trans (V1_v1 m c)

end Cert.KernelIdeal.Whole

end
-- ==== Proof.KI.Values1.lean ====
/-
  What each kind of point leaves, as values. The pieces the runs found are whole-buffer stores whose loads read whole
  buffers, so each reads back as the body's arithmetic of the four input blocks and the scratch it found:
  one step  s ↦ s + affᵀ·v  of the running state, from zero at a batch's first tile; and at a batch's last tile the
  output's buffer is a copy of the state just stored.
-/
import proofs.«160092_j49744311222296_1_alg».proof.Proof.KI.Data1
import Idealize.ShloMosaic.Lib.Pipeline.Value

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One tile's step on the running state `s`: the tile's contribution added to it. -/
def step (x0 : Vec F S1x512x1024 .f32) (x1 : Vec F S64x1024 .f32) (x2 : Vec F S64 .f32) (x3 : Vec F S1024x1024 .bf16)
    (s : Vec F S64x1024 .f32) : Vec F S64x1024 .f32 :=
  k0_pay1 (k0_pay5 x0 x3) (k0_pay6 x0 x1 x2) s

/-- The step at point `t`, on the blocks the call finds there. -/
abbrev stepAt (c : Dev nD) (t : Fin cfg0.N) (s : Vec F S64x1024 .f32) : Vec F S64x1024 .f32 :=
  step (blk V c 0 t) (blk V c 1 t) (blk V c 2 t) (blk V c 3 t) s

theorem scrMiddle_eq (c : Dev nD) (t : Fin cfg0.N) (hf : ¬isFirst (grid0.coords t)) (hl : ¬isLast (grid0.coords t)) (s : Vec F S64x1024 .f32) :
    scrMiddle V c t hf hl s = stepAt V c t s := by
  unfold scrMiddle
  rw [View.read_writes_eq_canon _ _ _ (scrMiddle_cover V c t hf hl s)]
  unfold runMiddle
  dsimp only
  sl_unfold_words
  rw [View.canon_unit_zero (S := S64x1024) hz2]
  simp only [View.readAt_eq_ld, (hm0 t).read_unread, (hm1 t).read_unread, (hm2 t).read_unread, (hm3 t).read_unread,
    View.ld_unit_zero (S := S64x1024) hz2, View.ld_unit_zero (S := S1x512x1024) hz3, View.ld_unit_zero (S := S64) hz1,
    View.ld_unit_zero (S := S1024x1024) hz2]
  exact congrArg _ ((Memref.isWhole_whole (cc0_scratch0 : Ref sig .tc)).read_unread s)

theorem scrLast_eq (c : Dev nD) (t : Fin cfg0.N) (hf : ¬isFirst (grid0.coords t)) (hl : isLast (grid0.coords t)) (s : Vec F S64x1024 .f32) :
    scrLast V c t hf hl s = stepAt V c t s := by
  unfold scrLast
  rw [View.read_writes_eq_canon _ _ _ (scrLast_cover V c t hf hl s)]
  unfold runLast
  dsimp only
  sl_unfold_words
  rw [View.canon_unit_zero (S := S64x1024) hz2]
  simp only [View.readAt_eq_ld, (hm0 t).read_unread, (hm1 t).read_unread, (hm2 t).read_unread, (hm3 t).read_unread,
    View.ld_unit_zero (S := S64x1024) hz2, View.ld_unit_zero (S := S1x512x1024) hz3, View.ld_unit_zero (S := S64) hz1,
    View.ld_unit_zero (S := S1024x1024) hz2]
  exact congrArg _ ((Memref.isWhole_whole (cc0_scratch0 : Ref sig .tc)).read_unread s)

theorem scrFirst_eq (c : Dev nD) (t : Fin cfg0.N) (hf : isFirst (grid0.coords t)) (hl : ¬isLast (grid0.coords t)) :
    scrFirst V c t hf hl = stepAt V c t (k0_pay3 (F := F)) := by
  unfold scrFirst
  rw [View.read_writes_eq_canon _ _ _ (scrFirst_cover V c t hf hl)]
  unfold runFirst
  dsimp only
  sl_unfold_words
  rw [View.canon_cons_unit_zero (S := S64x1024) hz2, View.readCov_unit_zero (S := S64x1024) _ hz2]
  simp only [View.readAt_eq_ld, (hm0 t).read_unread, (hm1 t).read_unread, (hm2 t).read_unread, (hm3 t).read_unread,
    View.ld_unit_zero (S := S64x1024) hz2, View.ld_unit_zero (S := S1x512x1024) hz3, View.ld_unit_zero (S := S64) hz1,
    View.ld_unit_zero (S := S1024x1024) hz2]
  rfl

theorem outLast_eq (c : Dev nD) (t : Fin cfg0.N) (hf : ¬isFirst (grid0.coords t)) (hl : isLast (grid0.coords t)) (s : Vec F S64x1024 .f32) :
    outLast V c t hf hl s = k0_pay2 (scrLast V c t hf hl s) := by
  unfold outLast scrLast
  rw [View.read_writes_eq_canon _ _ _ (outLast_cover V c t hf hl s), View.read_writes_eq_canon _ _ _ (scrLast_cover V c t hf hl s)]
  unfold runLast
  dsimp only
  sl_unfold_words
  rw [View.canon_unit_zero (S := S1x64x1024) hz3, View.readCov_unit_zero (S := S64x1024) _ hz2, View.canon_unit_zero (S := S64x1024) hz2]

/-- THE RUNNING STATE, one law for every point: the step applied to zero at a batch's first tile, to what the point
    before left otherwise. -/
theorem scrAt_step (c : Dev nD) (t : Fin cfg0.N) :
    scrAt V c t.val t.isLt = stepAt V c t
      (if t.val % 4 = 0 then k0_pay3 (F := F) else scrAt V c (t.val - 1) (Nat.lt_of_le_of_lt (Nat.sub_le _ _) t.isLt)) := by
  by_cases h0 : t.val % 4 = 0
  · rw [scrAt_first V c t h0, scrFirst_eq, if_pos h0]
  · by_cases h1 : t.val % 4 = 3
    · rw [scrAt_last V c t h0 h1, scrLast_eq, if_neg h0]
    · rw [scrAt_middle V c t h0 h1, scrMiddle_eq, if_neg h0]

/-- At a batch's last tile the output's staging buffer holds a copy of the state after that tile. -/
theorem outAt_last (c : Dev nD) (t : Fin cfg0.N) (h1 : t.val % 4 = 3) : outAt V c t = k0_pay2 (scrAt V c t.val t.isLt) := by
  have h0 : ¬t.val % 4 = 0 := by omega
  unfold outAt
  rw [dif_pos h1, outLast_eq, scrAt_last V c t h0 h1]

end Cert.KernelIdeal.Stage1

end
-- ==== Proof.Spec.lean ====
/-
  The layer as one function of its five arguments, index by index, on the extended reals.

  Tokens x[b,s,·] (4 batches of 2048 tokens, 1024 features), 64 centres c[k,·] with log-scales l[k], and two
  square weight matrices. With  σ[k] = min 2 (max 0.1 (exp l[k])),
      dist[b,s,k] = (Σ_d x² − 2·Σ_d x·c[k]) + Σ_d c[k]²,
      e[b,s,k]    = exp((−½ · dist) / (σ[k]·σ[k])),
      aff[b,s,k]  = e / (Σ_k' e[b,s,k'] + ε),
  the value rows are v[b,s,j] = Σ_d x[b,s,d]·wv[j,d], the state of centre k in batch b is
  splat[b,k,j] = Σ_s aff[b,s,k]·v[b,s,j], each token reads the states back, tok[b,s,j] = Σ_k aff[b,s,k]·splat[b,k,j],
  and the result is out[b,s,j] = Σ_d tok[b,s,d]·wo[j,d].

  Everything a single token contributes depends on that token's row alone, so those quantities are stated for
  a row `xr : Fin 1024 → EReal`; a block of tokens and the whole array both read them row by row.
  The four float literals stay the binary words both programs print; they are never evaluated.
-/
import Idealize.ShloMosaic.PureOps.Ideal
import Idealize.ShloMosaic.Lib.ValueIdx

noncomputable section

namespace Cert.Spec

open Idealize.ShloMosaic Idealize.ShloMosaic.ValueIdx

/-- The lower clip bound, the f32 word printed for 0.1. -/
abbrev lo : EReal := Ideal.ofBits .f32 0x3DCCCCCD#32
/-- The upper clip bound and the factor of the cross term, the f32 word of 2. -/
abbrev two : EReal := Ideal.ofBits .f32 0x40000000#32
/-- The f32 word of −1/2. -/
abbrev mhalf : EReal := Ideal.ofBits .f32 0xBF000000#32
/-- The f32 word printed for the normaliser's 1e-8. -/
abbrev eps : EReal := Ideal.ofBits .f32 0x322BCC77#32

/-! ## One token row against the centres -/

section Row

variable (xr : Fin 1024 → EReal) (ctr : Fin 64 → Fin 1024 → EReal) (ls : Fin 64 → EReal) (w : Fin 1024 → Fin 1024 → EReal)

/-- The clipped scale of centre `k`. -/
def scale (k : Fin 64) : EReal := min two (max lo (Ideal.exp (ls k)))

/-- The squared norm of centre `k`. -/
def csq (k : Fin 64) : EReal := ∑ d : Fin 1024, ctr k d * ctr k d

/-- The squared distance of the row to centre `k` by expansion, in the order both programs add it up. -/
def distRow (k : Fin 64) : EReal :=
  ((∑ d : Fin 1024, xr d * xr d) - two * (∑ d : Fin 1024, xr d * ctr k d)) + csq ctr k

/-- The row's unnormalised affinity to centre `k`. -/
def eRow (k : Fin 64) : EReal :=
  Ideal.exp (Ideal.div (mhalf * distRow xr ctr k) (scale ls k * scale ls k))

/-- The row's affinity to centre `k`: normalised over the centres, with the `ε` in the denominator. -/
def affRow (k : Fin 64) : EReal :=
  Ideal.div (eRow xr ctr ls k) ((∑ k' : Fin 64, eRow xr ctr ls k') + eps)

/-- A row times the transpose of a square weight matrix, at feature `j`. -/
def linRow (j : Fin 1024) : EReal := ∑ d : Fin 1024, xr d * w j d

end Row

/-! ## The whole layer -/

variable (x : Fin 4 → Fin 2048 → Fin 1024 → EReal) (ctr : Fin 64 → Fin 1024 → EReal) (ls : Fin 64 → EReal)
  (wv wo : Fin 1024 → Fin 1024 → EReal)

/-- The state of centre `k` in batch `b` at feature `j`: the affinity-weighted sum of ALL the batch's value rows. -/
def splat (b : Fin 4) (k : Fin 64) (j : Fin 1024) : EReal :=
  ∑ s : Fin 2048, affRow (x b s) ctr ls k * linRow (x b s) wv j

/-- What token `(b, s)` reads back from the centres' states. -/
def tok (b : Fin 4) (s : Fin 2048) (j : Fin 1024) : EReal :=
  ∑ k : Fin 64, affRow (x b s) ctr ls k * splat x ctr ls wv b k j

/-- The layer's result at `(b, s, j)`. -/
def out (b : Fin 4) (s : Fin 2048) (j : Fin 1024) : EReal := linRow (tok x ctr ls wv b s) wo j

/-! ## The same, over arrays -/

/-- The shapes of the arguments: tokens, centres, log-scales, a square weight matrix. -/
abbrev ShX : Shape := ⟨3, ![4, 2048, 1024]⟩
abbrev ShC : Shape := ⟨2, ![64, 1024]⟩
abbrev ShL : Shape := ⟨1, ![64]⟩
abbrev ShW : Shape := ⟨2, ![1024, 1024]⟩

/-- The result array as a function of the five argument arrays: `out` of their entries read by coordinates. -/
def outArr (a0 : ShX.Idx → EReal) (a1 : ShC.Idx → EReal) (a2 : ShL.Idx → EReal) (a3 a4 : ShW.Idx → EReal) : ShX.Idx → EReal :=
  fun i => out (fun b s d => a0 (ix3 b s d)) (fun k d => a1 (ix2 k d)) (fun k => a2 (ix1 k))
    (fun j d => a3 (ix2 j d)) (fun j d => a4 (ix2 j d)) (i 0) (i 1) (i 2)

end Cert.Spec

end
-- ==== Proof.Pay.Core.lean ====
/-
  The two kernel bodies' building blocks read at an index, on the extended reals: the two keepdims layout forms
  ([a] → [a, 1] and [a, 1] → [a, b]), a sum along the last axis of a matrix, and each of the four matrix products the
  bodies take into a zero accumulator as a plain sum over its one contracted axis.
-/
import proofs.«160092_j49744311222296_1_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## Two keepdims layout forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The exponential at an index -/

/-- The exponential of an array at an index is the exponential of the entry. -/
theorem exp_apply {s : Shape} {φ : FTy} (a : FVec Ideal s φ) (i : s.Idx) : exp a i = Ideal.exp (a i) := rfl

/-! ## A sum along the last axis of a matrix -/

/-- The sum of a matrix's rows along its last axis, read at row `r`. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ d : Fin b, src (ix2 r d) := by
  refine (Ideal.multiReduction_add_single src 0x00000000#32 h hφ hacc (ix1 r)).trans ?_
  refine Finset.sum_congr rfl fun d _ => congrArg src (funext fun c => Fin.ext ?_)
  match c with
  | ⟨0, _⟩ => rfl
  | ⟨1, _⟩ => rfl

/-! ## The four matrix products into a zero accumulator -/

theorem lhs_lin_non (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem rhs_lin_non (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- Rows times the transpose of a square matrix: both last axes contracted. -/
theorem matmul_lin_apply (L : FVec Ideal S512x1024 .bf16) (R : FVec Ideal S1024x1024 .bf16) (r : Fin 512) (j : Fin 1024) :
    matmul (F := Ideal) dot_S512x1024_S1024x1024_S512x1024_1_1_0_0_n_n none L R (constant (F := Ideal) S512x1024 .f32 0x00000000#32) (ix2 r j)
      = ∑ d : Fin 1024, L (ix2 r d) * R (ix2 j d) := by
  simp only [matmul]
  rw [Ideal.matmul_constant_zero_apply, ← Equiv.sum_comp (contrEquiv1 dot_S512x1024_S1024x1024_S512x1024_1_1_0_0_n_n 1024 rfl rfl).symm]
  refine Finset.sum_congr rfl fun d _ => ?_
  have hk := contrEquiv1_symm_val dot_S512x1024_S1024x1024_S512x1024_1_1_0_0_n_n 1024 rfl rfl d
  have el : dot_S512x1024_S1024x1024_S512x1024_1_1_0_0_n_n.lhsIdx (ix2 r j) ((contrEquiv1 dot_S512x1024_S1024x1024_S512x1024_1_1_0_0_n_n 1024 rfl rfl).symm d) = ix2 r d := funext fun a => Fin.ext (by
    match a with
    | ⟨0, _⟩ => exact lhs_lin_non _ _
    | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r j) ((contrEquiv1 dot_S512x1024_S1024x1024_S512x1024_1_1_0_0_n_n 1024 rfl rfl).symm d) = ix2 j d := funext fun a => Fin.ext (by
    match a with
    | ⟨0, _⟩ => exact rhs_lin_non _ _
    | ⟨1, _⟩ => exact (dot_S512x1024_S1024x1024_S512x1024_1_1_0_0_n_n.rhsIdx_val_of_single rfl _ _).trans hk)
  rw [el, er]

theorem lhs_cross_non (i : S512x64.Idx) (q : dot_S512x1024_S64x1024_S512x64_1_1_0_0_n_n.contr.Idx) :
    (dot_S512x1024_S64x1024_S512x64_1_1_0_0_n_n.lhsIdx i q 0).val = (i 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
theorem rhs_cross_non (i : S512x64.Idx) (q : dot_S512x1024_S64x1024_S512x64_1_1_0_0_n_n.contr.Idx) :
    (dot_S512x1024_S64x1024_S512x64_1_1_0_0_n_n.rhsIdx i q 0).val = (i 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
/-- Rows against the centres: both last axes contracted. -/
theorem matmul_cross_apply (L : FVec Ideal S512x1024 .bf16) (R : FVec Ideal S64x1024 .bf16) (r : Fin 512) (k : Fin 64) :
    matmul (F := Ideal) dot_S512x1024_S64x1024_S512x64_1_1_0_0_n_n none L R (constant (F := Ideal) S512x64 .f32 0x00000000#32) (ix2 r k)
      = ∑ d : Fin 1024, L (ix2 r d) * R (ix2 k d) := by
  simp only [matmul]
  rw [Ideal.matmul_constant_zero_apply, ← Equiv.sum_comp (contrEquiv1 dot_S512x1024_S64x1024_S512x64_1_1_0_0_n_n 1024 rfl rfl).symm]
  refine Finset.sum_congr rfl fun d _ => ?_
  have hk := contrEquiv1_symm_val dot_S512x1024_S64x1024_S512x64_1_1_0_0_n_n 1024 rfl rfl d
  have el : dot_S512x1024_S64x1024_S512x64_1_1_0_0_n_n.lhsIdx (ix2 r k) ((contrEquiv1 dot_S512x1024_S64x1024_S512x64_1_1_0_0_n_n 1024 rfl rfl).symm d) = ix2 r d := funext fun a => Fin.ext (by
    match a with
    | ⟨0, _⟩ => exact lhs_cross_non _ _
    | ⟨1, _⟩ => exact (dot_S512x1024_S64x1024_S512x64_1_1_0_0_n_n.lhsIdx_val_of_single rfl _ _).trans hk)
  have er : dot_S512x1024_S64x1024_S512x64_1_1_0_0_n_n.rhsIdx (ix2 r k) ((contrEquiv1 dot_S512x1024_S64x1024_S512x64_1_1_0_0_n_n 1024 rfl rfl).symm d) = ix2 k d := funext fun a => Fin.ext (by
    match a with
    | ⟨0, _⟩ => exact rhs_cross_non _ _
    | ⟨1, _⟩ => exact (dot_S512x1024_S64x1024_S512x64_1_1_0_0_n_n.rhsIdx_val_of_single rfl _ _).trans hk)
  rw [el, er]

theorem lhs_splat_non (i : S64x1024.Idx) (q : dot_S512x64_S512x1024_S64x1024_0_0_1_1_n_n.contr.Idx) :
    (dot_S512x64_S512x1024_S64x1024_0_0_1_1_n_n.lhsIdx i q 1).val = (i 0).val := by
  unfold DotDims.lhsIdx
  rw [dif_neg (show ¬(1 : Fin S512x64.rank) ∈ dot_S512x64_S512x1024_S64x1024_0_0_1_1_n_n.lhsBatch by decide), dif_pos (show (1 : Fin S512x64.rank) ∈ dot_S512x64_S512x1024_S64x1024_0_0_1_1_n_n.lhsNonContracting by decide)]
  rfl
theorem rhs_splat_non (i : S64x1024.Idx) (q : dot_S512x64_S512x1024_S64x1024_0_0_1_1_n_n.contr.Idx) :
    (dot_S512x64_S512x1024_S64x1024_0_0_1_1_n_n.rhsIdx i q 1).val = (i 1).val := by
  unfold DotDims.rhsIdx
  rw [dif_neg (show ¬(1 : Fin S512x1024.rank) ∈ dot_S512x64_S512x1024_S64x1024_0_0_1_1_n_n.rhsBatch by decide), dif_pos (show (1 : Fin S512x1024.rank) ∈ dot_S512x64_S512x1024_S64x1024_0_0_1_1_n_n.rhsNonContracting by decide)]
  rfl
/-- The weights' transpose times the value rows: both first axes contracted. -/
theorem matmul_splat_apply (L : FVec Ideal S512x64 .bf16) (R : FVec Ideal S512x1024 .bf16) (k : Fin 64) (j : Fin 1024) :
    matmul (F := Ideal) dot_S512x64_S512x1024_S64x1024_0_0_1_1_n_n none L R (constant (F := Ideal) S64x1024 .f32 0x00000000#32) (ix2 k j)
      = ∑ r : Fin 512, L (ix2 r k) * R (ix2 r j) := by
  simp only [matmul]
  rw [Ideal.matmul_constant_zero_apply, ← Equiv.sum_comp (contrEquiv1 dot_S512x64_S512x1024_S64x1024_0_0_1_1_n_n 512 rfl rfl).symm]
  refine Finset.sum_congr rfl fun r _ => ?_
  have hk := contrEquiv1_symm_val dot_S512x64_S512x1024_S64x1024_0_0_1_1_n_n 512 rfl rfl r
  have el : dot_S512x64_S512x1024_S64x1024_0_0_1_1_n_n.lhsIdx (ix2 k j) ((contrEquiv1 dot_S512x64_S512x1024_S64x1024_0_0_1_1_n_n 512 rfl rfl).symm r) = ix2 r k := funext fun a => Fin.ext (by
    match a with
    | ⟨1, _⟩ => exact lhs_splat_non _ _
    | ⟨0, _⟩ => exact (dot_S512x64_S512x1024_S64x1024_0_0_1_1_n_n.lhsIdx_val_of_single rfl _ _).trans hk)
  have er : dot_S512x64_S512x1024_S64x1024_0_0_1_1_n_n.rhsIdx (ix2 k j) ((contrEquiv1 dot_S512x64_S512x1024_S64x1024_0_0_1_1_n_n 512 rfl rfl).symm r) = ix2 r j := funext fun a => Fin.ext (by
    match a with
    | ⟨1, _⟩ => exact rhs_splat_non _ _
    | ⟨0, _⟩ => exact (dot_S512x64_S512x1024_S64x1024_0_0_1_1_n_n.rhsIdx_val_of_single rfl _ _).trans hk)
  rw [el, er]

theorem lhs_read_non (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem rhs_read_non (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl
/-- The weights times the centres' states: a plain matrix product. -/
theorem matmul_read_apply (L : FVec Ideal S512x64 .bf16) (R : FVec Ideal S64x1024 .bf16) (r : Fin 512) (j : Fin 1024) :
    matmul (F := Ideal) dot_S512x64_S64x1024_S512x1024_1_0_0_1_n_n none L R (constant (F := Ideal) S512x1024 .f32 0x00000000#32) (ix2 r j)
      = ∑ k : Fin 64, L (ix2 r k) * R (ix2 k j) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r j) ((contrEquiv1 dot_S512x64_S64x1024_S512x1024_1_0_0_1_n_n 64 rfl rfl).symm k) = ix2 r k := funext fun a => Fin.ext (by
    match a with
    | ⟨0, _⟩ => exact lhs_read_non _ _
    | ⟨1, _⟩ => exact (dot_S512x64_S64x1024_S512x1024_1_0_0_1_n_n.lhsIdx_val_of_single rfl _ _).trans hk)
  have er : dot_S512x64_S64x1024_S512x1024_1_0_0_1_n_n.rhsIdx (ix2 r j) ((contrEquiv1 dot_S512x64_S64x1024_S512x1024_1_0_0_1_n_n 64 rfl rfl).symm k) = ix2 k j := funext fun a => Fin.ext (by
    match a with
    | ⟨1, _⟩ => exact rhs_read_non _ _
    | ⟨0, _⟩ => exact (dot_S512x64_S64x1024_S512x1024_1_0_0_1_n_n.rhsIdx_val_of_single rfl _ _).trans hk)
  rw [el, er]

end Cert.KernelIdeal.Pay

end
-- ==== Proof.Pay.Aff.lean ====
/-
  The unnormalised affinities of a block of 512 token rows to the 64 centres, read at (row, centre) on the extended
  reals. Both calls compute them by the same arithmetic, so it is read once here.
-/
import proofs.«160092_j49744311222296_1_alg».proof.Proof.Gen.KernelIdeal.Skeleton
import proofs.«160092_j49744311222296_1_alg».proof.Proof.Spec
import proofs.«160092_j49744311222296_1_alg».proof.Proof.Pay.Core
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The block of token rows without its leading unit axis. -/
theorem block_apply (v3 : Vec Ideal S1x512x1024 .f32) (r : Fin 512) (d : Fin 1024) :
    k0_pay4 (F := Ideal) v3 (ix2 r d) = v3 (ix3 0 r d) := by
  unfold k0_pay4
  exact shapeCast_1ab_ab_apply v3 _ r d

/-- Row `r`'s unnormalised affinity to centre `k`: the exponential of −½ times the expanded squared distance, over the
    square of the clipped scale. The three sums and the clipping come out in the order the specification writes them. -/
theorem aff_apply (v3 : Vec Ideal S1x512x1024 .f32) (v5 : Vec Ideal S64x1024 .f32) (v6 : Vec Ideal S64 .f32)
    (r : Fin 512) (k : Fin 64) :
    k0_pay6 (F := Ideal) v3 v5 v6 (ix2 r k)
      = Cert.Spec.eRow (fun d => v3 (ix3 0 r d)) (fun k d => v5 (ix2 k d)) (fun k => v6 (ix1 k)) k := by
  unfold k0_pay6
  simp only [exp_apply, divf_apply, mulf_apply, addf_apply, subf_apply, broadcast_apply]
  rw [broadcastTo_a1_ab_apply, shapeCast_a_a1_apply, rowSum_apply, matmul_cross_apply,
    broadcastTo_1b_ab_apply, shapeCast_a_1a_apply, rowSum_apply,
    broadcastTo_1b_ab_apply, shapeCast_a_1a_apply]
  simp only [mulf_apply, minimumf_apply, maximumf_apply, broadcast_apply, exp_apply, truncf_apply, Ideal.ofBits_def,
    block_apply]
  unfold Cert.Spec.eRow Cert.Spec.distRow Cert.Spec.csq Cert.Spec.scale
  rfl

/-- The second call computes the same affinities from its own loads. -/
theorem aff_second_eq (v0 : Vec Ideal S1x512x1024 .f32) (v2 : Vec Ideal S64x1024 .f32) (v3 : Vec Ideal S64 .f32) :
    k1_pay4 (F := Ideal) v0 v2 v3 = k0_pay6 (F := Ideal) v0 v2 v3 := rfl

end Cert.KernelIdeal.Pay

end
-- ==== Proof.Pay0.lean ====
/-
  The first call's body at an index, on the extended reals: the block of token rows, its value rows, its unnormalised
  affinities, and one accumulation step of the centres' states.
-/
import proofs.«160092_j49744311222296_1_alg».proof.Proof.Gen.KernelIdeal.Skeleton
import proofs.«160092_j49744311222296_1_alg».proof.Proof.Spec
import proofs.«160092_j49744311222296_1_alg».proof.Proof.Pay.Core
import proofs.«160092_j49744311222296_1_alg».proof.Proof.Pay.Aff
import Idealize.ShloMosaic.Lib.ValueLayout
import Idealize.ShloMosaic.Lib.ValueIdx
import Idealize.ShloMosaic.PureOps.Ideal.Laws

noncomputable section

namespace Cert.KernelIdeal.Pay0

open Cert.KernelIdeal Cert.KernelIdeal.Gen Idealize.ShloMosaic Idealize.ShloMosaic.ValueIdx Cert.KernelIdeal.Pay

/-- The block of token rows without its leading unit axis. -/
theorem pay4_apply (v3 : Vec Ideal S1x512x1024 .f32) (r : Fin 512) (d : Fin 1024) :
    k0_pay4 (F := Ideal) v3 (ix2 r d) = v3 (ix3 0 r d) :=
  block_apply v3 r d

/-- The block's value rows: each token row times the transpose of the value weights. -/
theorem pay5_apply (v3 : Vec Ideal S1x512x1024 .f32) (v7 : Vec Ideal S1024x1024 .bf16) (r : Fin 512) (j : Fin 1024) :
    k0_pay5 (F := Ideal) v3 v7 (ix2 r j)
      = Cert.Spec.linRow (fun d => v3 (ix3 0 r d)) (fun j d => v7 (ix2 j d)) j := by
  unfold k0_pay5
  refine (matmul_lin_apply _ _ r j).trans ?_
  unfold Cert.Spec.linRow
  refine Finset.sum_congr rfl fun d _ => ?_
  rw [truncf_apply, pay4_apply, shapeCast_self]

/-- The block's unnormalised affinities to the centres. -/
theorem pay6_apply (v3 : Vec Ideal S1x512x1024 .f32) (v5 : Vec Ideal S64x1024 .f32) (v6 : Vec Ideal S64 .f32)
    (r : Fin 512) (k : Fin 64) :
    k0_pay6 (F := Ideal) v3 v5 v6 (ix2 r k)
      = Cert.Spec.eRow (fun d => v3 (ix3 0 r d)) (fun k d => v5 (ix2 k d)) (fun k => v6 (ix1 k)) k :=
  aff_apply v3 v5 v6 r k

/-- The state buffer's first value: zero everywhere. -/
theorem pay3_apply (k : Fin 64) (j : Fin 1024) : k0_pay3 (F := Ideal) (ix2 k j) = 0 := by
  unfold k0_pay3
  rw [shapeCast_self]
  exact Ideal.ofBits_zero_f32

/-- The finished states with a leading unit axis. -/
theorem pay2_apply (v55 : Vec Ideal S64x1024 .f32) (k : Fin 64) (j : Fin 1024) :
    k0_pay2 (F := Ideal) v55 (ix3 0 k j) = v55 (ix2 k j) := by
  unfold k0_pay2
  exact shapeCast_ab_1ab_apply v55 _ 0 k j

/-- One accumulation step: the states so far plus, over the block's rows, the normalised affinity times the value row. -/
theorem pay1_apply (v10 : FVec Ideal S512x1024 .f32) (v37 : FVec Ideal S512x64 .f32) (v47 : Vec Ideal S64x1024 .f32)
    (k : Fin 64) (j : Fin 1024) :
    k0_pay1 (F := Ideal) v10 v37 v47 (ix2 k j)
      = v47 (ix2 k j) + ∑ r : Fin 512,
          Ideal.div (v37 (ix2 r k)) ((∑ k' : Fin 64, v37 (ix2 r k')) + Cert.Spec.eps) * v10 (ix2 r j) := by
  unfold k0_pay1
  simp only [shapeCast_self, addf_apply]
  rw [matmul_splat_apply]
  refine congrArg (v47 (ix2 k j) + ·) (Finset.sum_congr rfl fun r _ => ?_)
  rw [truncf_apply, truncf_apply, divf_apply, broadcastTo_a1_ab_apply, addf_apply, shapeCast_a_a1_apply, rowSum_apply,
    broadcast_apply]
  rfl

end Cert.KernelIdeal.Pay0

end
-- ==== Proof.LibTileSum.lean ====
/-
  A sum over 2048 = 4 · 512 consecutive positions, built up tile by tile. In any additive commutative monoid,
  `upTo g n` is the sum of `g` over the positions below `512 · n`: it is `0` for `n = 0`, it grows by the sum of
  `g` over the `n`-th tile of 512 positions when `n` goes up by one, and at `n = 4` it is the sum over all
  positions. Nothing is assumed about the monoid beyond commutativity and associativity of its addition, so the
  statements hold on the extended reals, where subtraction and cancellation are not available.
-/
import Mathlib.Algebra.BigOperators.Group.Finset.Basic
import Mathlib.Algebra.BigOperators.Fin
import Mathlib.Data.Fintype.BigOperators

namespace Cert.LibTileSum

variable {M : Type*} [AddCommMonoid M]

/-- The sum of `g` over the positions below `512 · n`. -/
def upTo (g : Fin 2048 → M) (n : ℕ) : M := ∑ σ : Fin 2048, if σ.val < 512 * n then g σ else 0

/-- Below position `0` there is nothing to add. -/
theorem upTo_zero (g : Fin 2048 → M) : upTo g 0 = 0 := by
  unfold upTo
  exact Finset.sum_eq_zero fun σ _ => if_neg (by omega)

/-- One more tile: the positions below `512 · (n + 1)` are those below `512 · n` together with the 512 positions
    `512 · n + r`, and `idx`, whose value at `r` is that position, lists the latter once each. -/
theorem upTo_succ (g : Fin 2048 → M) (n : ℕ) (hn : n < 4) (idx : Fin 512 → Fin 2048)
    (hidx : ∀ r : Fin 512, (idx r).val = 512 * n + r.val) :
    upTo g (n + 1) = upTo g n + ∑ r : Fin 512, g (idx r) := by
  have hsplit : ∀ σ : Fin 2048, (if σ.val < 512 * (n + 1) then g σ else 0)
      = (if σ.val < 512 * n then g σ else 0)
        + (if 512 * n ≤ σ.val ∧ σ.val < 512 * (n + 1) then g σ else 0) := by
    intro σ
    by_cases h1 : σ.val < 512 * n
    · have h2 : σ.val < 512 * (n + 1) := by omega
      have h3 : ¬(512 * n ≤ σ.val ∧ σ.val < 512 * (n + 1)) := by omega
      rw [if_pos h1, if_pos h2, if_neg h3, add_zero]
    · by_cases h2 : σ.val < 512 * (n + 1)
      · have h3 : 512 * n ≤ σ.val ∧ σ.val < 512 * (n + 1) := ⟨by omega, h2⟩
        rw [if_neg h1, if_pos h2, if_pos h3, zero_add]
      · have h3 : ¬(512 * n ≤ σ.val ∧ σ.val < 512 * (n + 1)) := fun h => h2 h.2
        rw [if_neg h1, if_neg h2, if_neg h3, add_zero]
  unfold upTo
  rw [Finset.sum_congr rfl fun σ _ => hsplit σ, Finset.sum_add_distrib]
  congr 1
  rw [← Finset.sum_filter]
  symm
  refine Finset.sum_bij (fun r _ => idx r) ?_ ?_ ?_ ?_
  · intro r _
    have hr := r.isLt
    exact Finset.mem_filter.2 ⟨Finset.mem_univ _, by rw [hidx]; omega⟩
  · intro r1 _ r2 _ h
    have hv := congrArg Fin.val h
    rw [hidx, hidx] at hv
    exact Fin.ext (by omega)
  · intro σ hσ
    obtain ⟨_, h1, h2⟩ := Finset.mem_filter.1 hσ
    refine ⟨⟨σ.val - 512 * n, by omega⟩, Finset.mem_univ _, Fin.ext ?_⟩
    rw [hidx]
    show 512 * n + (σ.val - 512 * n) = σ.val
    omega
  · intro r _
    rfl

/-- Every position is below `512 · 4 = 2048`. -/
theorem upTo_four (g : Fin 2048 → M) : upTo g 4 = ∑ σ : Fin 2048, g σ := by
  unfold upTo
  exact Finset.sum_congr rfl fun σ _ => if_pos (by have := σ.isLt; omega)

end Cert.LibTileSum
-- ==== Proof.KI.States.lean ====
/-
  The first call's output array as one function of the arrays it is entered with. The scratch carries, for the
  batch b = t / 4 of the point t, the running state  Σ_σ aff[b, σ, k] · v[b, σ, j]  over the token positions σ of the
  tiles done so far; a tile adds its 512 positions, a batch's first tile starts from zero, and after a batch's
  fourth tile the sum runs over all 2048 positions, which is the centre's state in that batch. That state is what
  the batch's last point writes back, to the block of the output array that holds batch b.
-/
import proofs.«160092_j49744311222296_1_alg».proof.Proof.KI.Values1
import proofs.«160092_j49744311222296_1_alg».proof.Proof.Pay0
import proofs.«160092_j49744311222296_1_alg».proof.Proof.Spec
import proofs.«160092_j49744311222296_1_alg».proof.Proof.LibTileSum
import Idealize.ShloMosaic.Lib.Pipeline.Value
import Idealize.ShloMosaic.Lib.ValueIdx

set_option maxRecDepth 16384

noncomputable section

namespace Cert.KernelIdeal.Stage1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The arrays by coordinates -/

/-- The tokens, the centres, the log-scales and the value weights the call is entered with, read by coordinates. -/
abbrev X (c : Dev nD) : Fin 4 → Fin 2048 → Fin 1024 → EReal := fun b s d => V c main_arg0 (ix3 b s d)
abbrev Ctr (c : Dev nD) : Fin 64 → Fin 1024 → EReal := fun k d => V c main_arg1 (ix2 k d)
abbrev Ls (c : Dev nD) : Fin 64 → EReal := fun k => V c main_arg2 (ix1 k)
abbrev Wv (c : Dev nD) : Fin 1024 → Fin 1024 → EReal := fun j d => V c main_v0 (ix2 j d)

/-! ## Where each window's block sits -/

/-- The token window's block at point `t` is tile `t % 4` of batch `t / 4`; the other inputs' blocks are their whole
    arrays; the output's block is batch `t / 4`. -/
theorem where0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 1) = 0 :=
  (by decide +kernel : ∀ t : Fin grid0.N, _)
theorem where3 : ∀ t : Fin cfg0.N, win0_3.index t (0 : Fin 2) = 0 ∧ win0_3.index t (1 : Fin 2) = 0 :=
  (by decide +kernel : ∀ t : Fin grid0.N, _)
theorem where4 : ∀ t : Fin cfg0.N, win0_4.index t (0 : Fin 3) = t.val / 4 ∧ win0_4.index t (1 : Fin 3) = 0
    ∧ win0_4.index t (2 : Fin 3) = 0 :=
  (by decide +kernel : ∀ t : Fin grid0.N, _)

/-- Position `r` of tile `q` among a batch's 2048 token positions. -/
def tilePos (q : ℕ) (hq : q < 4) (r : Fin 512) : Fin 2048 := ⟨512 * q + r.val, by have := r.isLt; omega⟩

/-! ## The four blocks, read -/

/-- Row `r` of the token block at point `t` is token `512 · (t % 4) + r` of batch `t / 4`. -/
theorem blk0_apply (c : Dev nD) (t : Fin cfg0.N) (b : Fin 4) (hb : b.val = t.val / 4) (r : Fin 512) (d : Fin 1024) :
    (blk V c 0 t : Vec Ideal S1x512x1024 .f32) (ix3 0 r d)
      = X V c b (tilePos (t.val % 4) (Nat.mod_lt _ (by decide)) r) d := by
  obtain ⟨e0, e1, e2⟩ := where0 t
  unfold blk
  rw [View.read_apply]
  show V c main_arg0 _ = V c main_arg0 _
  congr 1
  funext a
  apply Fin.ext
  match a with
  | ⟨0, _⟩ =>
    show win0_0.index t (0 : Fin 3) * 1 + 1 * ((ix3 (0 : Fin 1) r d : S1x512x1024.Idx) 0).val = b.val
    rw [e0, hb]; show t.val / 4 * 1 + 1 * 0 = t.val / 4; omega
  | ⟨1, _⟩ =>
    show win0_0.index t (1 : Fin 3) * 512 + 1 * r.val = 512 * (t.val % 4) + r.val
    rw [e1]; omega
  | ⟨2, _⟩ =>
    show win0_0.index t (2 : Fin 3) * 1024 + 1 * d.val = d.val
    rw [e2]; omega

/-- The centres' block is the centres' array. -/
theorem blk1_apply (c : Dev nD) (t : Fin cfg0.N) (k : Fin 64) (d : Fin 1024) :
    (blk V c 1 t : Vec Ideal S64x1024 .f32) (ix2 k d) = Ctr V c k d := by
  obtain ⟨e0, e1⟩ := where1 t
  unfold blk
  rw [View.read_apply]
  show V c main_arg1 _ = V c main_arg1 _
  congr 1
  funext a
  apply Fin.ext
  match a with
  | ⟨0, _⟩ => show win0_1.index t (0 : Fin 2) * 64 + 1 * k.val = k.val; rw [e0]; omega
  | ⟨1, _⟩ => show win0_1.index t (1 : Fin 2) * 1024 + 1 * d.val = d.val; rw [e1]; omega

/-- The log-scales' block is their array. -/
theorem blk2_apply (c : Dev nD) (t : Fin cfg0.N) (k : Fin 64) :
    (blk V c 2 t : Vec Ideal S64 .f32) (ix1 k) = Ls V c k := by
  have e0 := where2 t
  unfold blk
  rw [View.read_apply]
  show V c main_arg2 _ = V c main_arg2 _
  congr 1
  funext a
  apply Fin.ext
  match a with
  | ⟨0, _⟩ => show win0_2.index t (0 : Fin 1) * 64 + 1 * k.val = k.val; rw [e0]; omega

/-- The value weights' block is their array. -/
theorem blk3_apply (c : Dev nD) (t : Fin cfg0.N) (j : Fin 1024) (d : Fin 1024) :
    (blk V c 3 t : Vec Ideal S1024x1024 .bf16) (ix2 j d) = Wv V c j d := by
  obtain ⟨e0, e1⟩ := where3 t
  unfold blk
  rw [View.read_apply]
  show V c main_v0 _ = V c main_v0 _
  congr 1
  funext a
  apply Fin.ext
  match a with
  | ⟨0, _⟩ => show win0_3.index t (0 : Fin 2) * 1024 + 1 * j.val = j.val; rw [e0]; omega
  | ⟨1, _⟩ => show win0_3.index t (1 : Fin 2) * 1024 + 1 * d.val = d.val; rw [e1]; omega

/-! ## One tile's step at an index -/

/-- One step on blocks that read token rows `Xb`, centres `C`, log-scales `L` and value weights `W`: the state plus,
    over the tile's 512 rows, the row's affinity to centre `k` times its value row at feature `j`. -/
theorem step_rows (x0 : Vec Ideal S1x512x1024 .f32) (x1 : Vec Ideal S64x1024 .f32) (x2 : Vec Ideal S64 .f32)
    (x3 : Vec Ideal S1024x1024 .bf16) (s : Vec Ideal S64x1024 .f32)
    (Xb : Fin 512 → Fin 1024 → EReal) (C : Fin 64 → Fin 1024 → EReal) (L : Fin 64 → EReal)
    (W : Fin 1024 → Fin 1024 → EReal)
    (h0 : ∀ r d, x0 (ix3 0 r d) = Xb r d) (h1 : ∀ k d, x1 (ix2 k d) = C k d) (h2 : ∀ k, x2 (ix1 k) = L k)
    (h3 : ∀ j d, x3 (ix2 j d) = W j d) (k : Fin 64) (j : Fin 1024) :
    step x0 x1 x2 x3 s (ix2 k j)
      = s (ix2 k j) + ∑ r : Fin 512, Cert.Spec.affRow (Xb r) C L k * Cert.Spec.linRow (Xb r) W j := by
  have e0 : ∀ r, (fun d => x0 (ix3 0 r d)) = Xb r := fun r => funext (h0 r)
  have e1 : (fun k d => x1 (ix2 k d)) = C := funext fun k => funext (h1 k)
  have e2 : (fun k => x2 (ix1 k)) = L := funext h2
  have e3 : (fun j d => x3 (ix2 j d)) = W := funext fun j => funext (h3 j)
  unfold step
  refine (Pay0.pay1_apply _ _ s k j).trans ?_
  refine congrArg (s (ix2 k j) + ·) (Finset.sum_congr rfl fun r _ => ?_)
  simp only [Pay0.pay6_apply, Pay0.pay5_apply]
  rw [e0 r, e1, e2, e3]
  rfl

/-- The summand of a centre's state: token position `σ` of batch `b`. -/
abbrev term (c : Dev nD) (b : Fin 4) (k : Fin 64) (j : Fin 1024) (σ : Fin 2048) : EReal :=
  Cert.Spec.affRow (X V c b σ) (Ctr V c) (Ls V c) k * Cert.Spec.linRow (X V c b σ) (Wv V c) j

/-- The step at point `t` adds tile `t % 4` of batch `t / 4`. -/
theorem stepAt_apply (c : Dev nD) (t : Fin cfg0.N) (b : Fin 4) (hb : b.val = t.val / 4) (s : Vec Ideal S64x1024 .f32)
    (k : Fin 64) (j : Fin 1024) :
    stepAt V c t s (ix2 k j)
      = s (ix2 k j) + ∑ r : Fin 512, term V c b k j (tilePos (t.val % 4) (Nat.mod_lt _ (by decide)) r) :=
  step_rows (blk V c 0 t) (blk V c 1 t) (blk V c 2 t) (blk V c 3 t) s
    (fun r => X V c b (tilePos (t.val % 4) (Nat.mod_lt _ (by decide)) r)) (Ctr V c) (Ls V c) (Wv V c)
    (fun r d => blk0_apply V c t b hb r d) (fun k d => blk1_apply V c t k d) (fun k => blk2_apply V c t k)
    (fun j d => blk3_apply V c t j d) k j

/-! ## The running state -/

/-- After point `n` the scratch holds, for batch `n / 4`, the sum over the positions of tiles `0 … n % 4`. -/
theorem scr_value (c : Dev nD) : ∀ (n : ℕ) (hn : n < cfg0.N) (b : Fin 4), b.val = n / 4 → ∀ (k : Fin 64) (j : Fin 1024),
    scrAt V c n hn (ix2 k j) = Cert.LibTileSum.upTo (term V c b k j) (n % 4 + 1) := by
  intro n
  induction n using Nat.strong_induction_on with
  | _ n ih =>
    intro hn b hb k j
    have hq : n % 4 < 4 := Nat.mod_lt _ (by decide)
    refine (congrFun (scrAt_step V c ⟨n, hn⟩) (ix2 k j)).trans ?_
    refine (stepAt_apply V c ⟨n, hn⟩ b hb _ k j).trans ?_
    rw [Cert.LibTileSum.upTo_succ (term V c b k j) (n % 4) hq (tilePos (n % 4) hq) (fun r => rfl)]
    refine congrArg₂ (· + ·) ?_ rfl
    show (if n % 4 = 0 then k0_pay3 (F := Ideal) else scrAt V c (n - 1) _) (ix2 k j) = _
    by_cases h0 : n % 4 = 0
    · rw [if_pos h0, Pay0.pay3_apply, h0, Cert.LibTileSum.upTo_zero]
    · rw [if_neg h0, ih (n - 1) (by omega) (by omega) b (by omega) k j]
      exact congrArg _ (by omega)

/-- At a batch's last tile the output's buffer holds the centres' states of that batch. -/
theorem out_value (c : Dev nD) (t : Fin cfg0.N) (h1 : t.val % 4 = 3) (b : Fin 4) (hb : b.val = t.val / 4)
    (k : Fin 64) (j : Fin 1024) :
    outAt V c t (ix3 0 k j) = Cert.Spec.splat (X V c) (Ctr V c) (Ls V c) (Wv V c) b k j := by
  rw [outAt_last V c t h1, Pay0.pay2_apply, scr_value V c t.val t.isLt b hb k j, h1]
  exact Cert.LibTileSum.upTo_four _

/-! ## From the blocks to the array -/

/-- The centres' states of every batch, as an array. -/
abbrev statesArr (c : Dev nD) : S4x64x1024.Idx → EReal :=
  fun i => Cert.Spec.splat (X V c) (Ctr V c) (Ls V c) (Wv V c) (i 0) (i 1) (i 2)

/-- What a batch's last point writes back is that batch's block of the states. -/
theorem flushed_states (c : Dev nD) (t : Fin cfg0.N) (hf : (cfg0.win 4).flush t = true) :
    (dat V c).flushed 4 t = ((cfg0.win 4).blk t).view.read (Elt Ideal) (statesArr V c) := by
  have h1 : t.val % 4 = 3 := (flush0_4 t).mp hf
  have hN : t.val < 16 := lt_of_lt_of_eq t.isLt (show cfg0.N = 16 from N_0)
  obtain ⟨e0, e1, e2⟩ := where4 t
  show (cfg0.win 4).cut (grid0.coords t) ((dat V c).after 4 t) = _
  rw [after4]
  refine funext fun (y : S1x64x1024.Idx) => ?_
  obtain ⟨z, k, j, rfl⟩ : ∃ (z : Fin 1) (k : Fin 64) (j : Fin 1024), y = ix3 z k j := ⟨y 0, y 1, y 2, eq_ix3 y⟩
  obtain rfl : z = 0 := Subsingleton.elim _ _
  obtain ⟨b, hb⟩ : ∃ b : Fin 4, b.val = t.val / 4 := ⟨⟨t.val / 4, by omega⟩, rfl⟩
  have hE : ((cfg0.win 4).blk t).view.emb (ix3 (0 : Fin 1) k j : S1x64x1024.Idx) = (ix3 b k j : S4x64x1024.Idx) :=
    funext fun a => Fin.ext (by
      match a with
      | ⟨0, _⟩ => show win0_4.index t (0 : Fin 3) * 1 + 1 * 0 = b.val; rw [e0, hb]; omega
      | ⟨1, _⟩ => show win0_4.index t (1 : Fin 3) * 64 + 1 * k.val = k.val; rw [e1]; omega
      | ⟨2, _⟩ => show win0_4.index t (2 : Fin 3) * 1024 + 1 * j.val = j.val; rw [e2]; omega)
  show outAt V c t (ix3 0 k j)
    = statesArr V c (((cfg0.win 4).blk t).view.emb (ix3 (0 : Fin 1) k j : S1x64x1024.Idx))
  rw [hE]
  exact out_value V c t h1 b hb k j

/-- An index of the output array lies in point `t`'s block iff each coordinate is in the block's range. -/
theorem mem_out_blk (t : Fin cfg0.N) (i : S4x64x1024.Idx) :
    i ∈ ((cfg0.win 4).blk t).view.set ↔ ∀ a : Fin 3, win0_4.index t a * S1x64x1024.size a ≤ (i a).val
      ∧ (i a).val < win0_4.index t a * S1x64x1024.size a + S1x64x1024.size a := by
  show i ∈ ((View.whole main_v2).slice (win0_4.rect t)).set ↔ _
  rw [View.set_slice_whole, Rect.mem_set_unit]
  exact Iff.rfl

/-- THE OUTPUT ARRAY of the first call: the centres' states, `splat[b, k, j] = Σ_s aff[b, s, k] · v[b, s, j]`. Index
    `(b, k, j)` lies in the block written back at the batch's last point `4 b + 3`. -/
theorem states_value (c : Dev nD) :
    (dat V c).arrAt 4 cfg0.N
      = fun i : S4x64x1024.Idx => Cert.Spec.splat (X V c) (Ctr V c) (Ls V c) (Wv V c) (i 0) (i 1) (i 2) :=
  (dat V c).arrAt_eq_of_cover 4 (statesArr V c) (fun t hf => flushed_states V c t hf) fun (i : S4x64x1024.Idx) => by
    have h0 : (i 0).val < 4 := (i 0).isLt
    have h1 : (i 1).val < 64 := (i 1).isLt
    have h2 : (i 2).val < 1024 := (i 2).isLt
    obtain ⟨t, ht⟩ : ∃ t : Fin cfg0.N, t.val = 4 * (i 0).val + 3 :=
      ⟨⟨4 * (i 0).val + 3, lt_of_lt_of_eq (by omega : 4 * (i 0).val + 3 < 16) N_0.symm⟩, rfl⟩
    obtain ⟨e0, e1, e2⟩ := where4 t
    refine ⟨t, (flush0_4 t).mpr (by omega), ?_⟩
    rw [mem_out_blk]
    intro a
    match a with
    | ⟨0, _⟩ =>
      show win0_4.index t (0 : Fin 3) * 1 ≤ (i 0).val ∧ (i 0).val < win0_4.index t (0 : Fin 3) * 1 + 1
      rw [e0]; omega
    | ⟨1, _⟩ =>
      show win0_4.index t (1 : Fin 3) * 64 ≤ (i 1).val ∧ (i 1).val < win0_4.index t (1 : Fin 3) * 64 + 64
      rw [e1]; omega
    | ⟨2, _⟩ =>
      show win0_4.index t (2 : Fin 3) * 1024 ≤ (i 2).val ∧ (i 2).val < win0_4.index t (2 : Fin 3) * 1024 + 1024
      rw [e2]; omega

end Cert.KernelIdeal.Stage1

end
-- ==== Proof.Pay1.lean ====
/-
  The second call's body at an index, on the extended reals: the centres' states and the output weights as loaded, the
  block's unnormalised affinities and their row sums, and the block of results.
-/
import proofs.«160092_j49744311222296_1_alg».proof.Proof.Gen.KernelIdeal.Skeleton
import proofs.«160092_j49744311222296_1_alg».proof.Proof.Spec
import proofs.«160092_j49744311222296_1_alg».proof.Proof.Pay.Core
import proofs.«160092_j49744311222296_1_alg».proof.Proof.Pay.Aff
import Idealize.ShloMosaic.Lib.ValueLayout
import Idealize.ShloMosaic.Lib.ValueIdx
import Idealize.ShloMosaic.PureOps.Ideal.Laws

noncomputable section

namespace Cert.KernelIdeal.Pay1

open Cert.KernelIdeal Cert.KernelIdeal.Gen Idealize.ShloMosaic Idealize.ShloMosaic.ValueIdx Cert.KernelIdeal.Pay

/-- The batch's states without their leading unit axis. -/
theorem pay2_apply (v4 : Vec Ideal S1x64x1024 .f32) (k : Fin 64) (j : Fin 1024) :
    k1_pay2 (F := Ideal) v4 (ix2 k j) = v4 (ix3 0 k j) := by
  unfold k1_pay2
  exact shapeCast_1ab_ab_apply v4 _ k j

/-- The output weights as loaded. -/
theorem pay3_apply (v6 : Vec Ideal S1024x1024 .bf16) : k1_pay3 (F := Ideal) v6 = v6 := by
  unfold k1_pay3
  exact shapeCast_self v6 _

/-- The block's unnormalised affinities to the centres. -/
theorem pay4_apply (v0 : Vec Ideal S1x512x1024 .f32) (v2 : Vec Ideal S64x1024 .f32) (v3 : Vec Ideal S64 .f32)
    (r : Fin 512) (k : Fin 64) :
    k1_pay4 (F := Ideal) v0 v2 v3 (ix2 r k)
      = Cert.Spec.eRow (fun d => v0 (ix3 0 r d)) (fun k d => v2 (ix2 k d)) (fun k => v3 (ix1 k)) k := by
  rw [aff_second_eq]
  exact aff_apply v0 v2 v3 r k

/-- Each row's affinities summed over the centres. -/
theorem pay5_apply (v0 : Vec Ideal S1x512x1024 .f32) (v2 : Vec Ideal S64x1024 .f32) (v3 : Vec Ideal S64 .f32)
    (r : Fin 512) :
    k1_pay5 (F := Ideal) v0 v2 v3 (ix2 r 0)
      = ∑ k' : Fin 64, Cert.Spec.eRow (fun d => v0 (ix3 0 r d)) (fun k d => v2 (ix2 k d)) (fun k => v3 (ix1 k)) k' := by
  unfold k1_pay5
  rw [shapeCast_a_a1_apply, rowSum_apply]
  exact Finset.sum_congr rfl fun k' _ => pay4_apply v0 v2 v3 r k'

/-- The normaliser's small constant in every row. -/
theorem pay6_apply (r : Fin 512) : k1_pay6 (F := Ideal) (ix2 r 0) = Cert.Spec.eps := by
  unfold k1_pay6
  rfl

/-- The block of results: each row's normalised affinities read the states back, and the row so read goes through the
    transpose of the output weights. -/
theorem pay1_apply (v5 : FVec Ideal S64x1024 .f32) (v7 : FVec Ideal S1024x1024 .bf16) (v34 : FVec Ideal S512x64 .f32)
    (v36 v37 : FVec Ideal S512x1 .f32) (r : Fin 512) (j : Fin 1024) :
    k1_pay1 (F := Ideal) v5 v7 v34 v36 v37 (ix3 0 r j)
      = Cert.Spec.linRow
          (fun d => ∑ k : Fin 64, Ideal.div (v34 (ix2 r k)) (v36 (ix2 r 0) + v37 (ix2 r 0)) * v5 (ix2 k d))
          (fun j d => v7 (ix2 j d)) j := by
  unfold k1_pay1
  refine (shapeCast_ab_1ab_apply _ _ 0 r j).trans ?_
  refine (matmul_lin_apply _ _ r j).trans ?_
  unfold Cert.Spec.linRow
  refine Finset.sum_congr rfl fun d _ => ?_
  rw [truncf_apply, matmul_read_apply]
  simp only [truncf_apply, divf_apply, broadcastTo_a1_ab_apply, addf_apply]

end Cert.KernelIdeal.Pay1

end
-- ==== Proof.KI.Result.lean ====
/-
  The second call's result array as one function of the arrays the call finds. Each grid point (b, s) stores one block
  of 512 token rows: row r of the block is token 512·s + r of batch b, read against the centres, the log-scales, the
  batch's 64 centre states and the output weights. The 16 blocks tile the array, so the array ends holding, at
  (b, s', j), the specification's row function of token (b, s').
-/
import proofs.«160092_j49744311222296_1_alg».proof.Proof.KI.Data2
import proofs.«160092_j49744311222296_1_alg».proof.Proof.Pay1
import proofs.«160092_j49744311222296_1_alg».proof.Proof.Spec
import Idealize.ShloMosaic.Lib.Pipeline.Value
import Idealize.ShloMosaic.Lib.ValueIdx

set_option maxRecDepth 16384

noncomputable section

namespace Cert.KernelIdeal.Stage2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays by coordinates -/

/-- The tokens. -/
abbrev X (c : Dev nD) : Fin 4 → Fin 2048 → Fin 1024 → EReal := fun b s d => (V c main_arg0 : S4x2048x1024.Idx → EReal) (ix3 b s d)
/-- The centres. -/
abbrev Ctr (c : Dev nD) : Fin 64 → Fin 1024 → EReal := fun k d => (V c main_arg1 : S64x1024.Idx → EReal) (ix2 k d)
/-- The log-scales. -/
abbrev Ls (c : Dev nD) : Fin 64 → EReal := fun k => (V c main_arg2 : S64.Idx → EReal) (ix1 k)
/-- The centres' states, batch by batch. -/
abbrev St (c : Dev nD) : Fin 4 → Fin 64 → Fin 1024 → EReal := fun b k d => (V c main_v2 : S4x64x1024.Idx → EReal) (ix3 b k d)
/-- The output weights. -/
abbrev Wo (c : Dev nD) : Fin 1024 → Fin 1024 → EReal := fun j d => (V c main_v1 : S1024x1024.Idx → EReal) (ix2 j d)

/-- What the result array ends holding: at (b, s, j), the states of batch b read back by token (b, s)'s affinities,
    through the transpose of the output weights. -/
abbrev Out (c : Dev nD) : S4x2048x1024.Idx → EReal := fun i =>
  Cert.Spec.linRow (fun d => ∑ k : Fin 64, Cert.Spec.affRow (X V c (i 0) (i 1)) (Ctr V c) (Ls V c) k * St V c (i 0) k d) (Wo V c) (i 2)

/-! ## One tile -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's one store at (row, feature), from the five blocks it read. -/
theorem tile_apply (x0 : Vec Ideal S1x512x1024 .f32) (x1 : Vec Ideal S64x1024 .f32) (x2 : Vec Ideal S64 .f32)
    (x3 : Vec Ideal S1x64x1024 .f32) (x4 : Vec Ideal S1024x1024 .bf16) (r : Fin 512) (j : Fin 1024) :
    tileOut x0 x1 x2 x3 x4 (ix3 0 r j)
      = Cert.Spec.linRow
          (fun d => ∑ k : Fin 64, Cert.Spec.affRow (fun d => x0 (ix3 0 r d)) (fun k d => x1 (ix2 k d)) (fun k => x2 (ix1 k)) k
            * x3 (ix3 0 k d))
          (fun j d => x4 (ix2 j d)) j := by
  unfold tileOut
  rw [View.canon_unit_zero (S := S1x512x1024) zeros3]
  simp only [View.ld_unit_zero (S := S1x512x1024) zeros3, View.ld_unit_zero (S := S64x1024) zeros2,
    View.ld_unit_zero (S := S64) zeros1, View.ld_unit_zero (S := S1x64x1024) zeros3, View.ld_unit_zero (S := S1024x1024) zeros2]
  rw [Pay1.pay1_apply]
  simp only [Pay1.pay2_apply, Pay1.pay3_apply, Pay1.pay4_apply, Pay1.pay5_apply, Pay1.pay6_apply]
  rfl

/-! ## Where each window's block sits -/

/-- The windows' block indices at grid point t = 4·b + s, decided over the 16 points. -/
theorem index_facts : ∀ t : Fin cfg1.N,
    win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val / 4 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = t.val / 4 ∧ win1_5.index t (1 : Fin 3) = t.val % 4 ∧ win1_5.index t (2 : Fin 3) = 0 :=
  (by decide +kernel : ∀ t : Fin grid1.N, _)

/-- The token block at point t is rows 512·(t mod 4) … of batch t / 4. -/
theorem blk0_apply (c : Dev nD) (t : Fin cfg1.N) (y : S1x512x1024.Idx) (i : S4x2048x1024.Idx)
    (h0 : (i 0).val = t.val / 4) (h1 : (i 1).val = 512 * (t.val % 4) + (y 1).val) (h2 : (i 2).val = (y 2).val) :
    (blk V c 0 t : Vec Ideal S1x512x1024 .f32) y = (V c main_arg0 : S4x2048x1024.Idx → EReal) i := by
  obtain ⟨e0, e1, e2, -⟩ := index_facts t
  have hy0 : (y 0).val = 0 := Nat.lt_one_iff.mp (y 0).isLt
  unfold blk
  rw [View.read_apply]
  show (V c main_arg0 : S4x2048x1024.Idx → EReal) _ = _
  congr 1
  funext a
  apply Fin.ext
  match a with
  | ⟨0, _⟩ => show win1_0.index t (0 : Fin 3) * 1 + 1 * (y 0).val = (i 0).val; omega
  | ⟨1, _⟩ => show win1_0.index t (1 : Fin 3) * 512 + 1 * (y 1).val = (i 1).val; omega
  | ⟨2, _⟩ => show win1_0.index t (2 : Fin 3) * 1024 + 1 * (y 2).val = (i 2).val; omega

/-- The centres' block is the whole array. -/
theorem blk1_eq (c : Dev nD) (t : Fin cfg1.N) (y : S64x1024.Idx) :
    (blk V c 1 t : Vec Ideal S64x1024 .f32) y = (V c main_arg1 : S64x1024.Idx → EReal) y := by
  obtain ⟨-, -, -, e0, e1, -⟩ := index_facts t
  unfold blk
  rw [View.read_apply]
  show (V c main_arg1 : S64x1024.Idx → EReal) _ = _
  congr 1
  funext a
  apply Fin.ext
  match a with
  | ⟨0, _⟩ => show win1_1.index t (0 : Fin 2) * 64 + 1 * (y 0).val = (y 0).val; omega
  | ⟨1, _⟩ => show win1_1.index t (1 : Fin 2) * 1024 + 1 * (y 1).val = (y 1).val; omega

/-- The log-scales' block is the whole array. -/
theorem blk2_eq (c : Dev nD) (t : Fin cfg1.N) (y : S64.Idx) :
    (blk V c 2 t : Vec Ideal S64 .f32) y = (V c main_arg2 : S64.Idx → EReal) y := by
  obtain ⟨-, -, -, -, -, e0, -⟩ := index_facts t
  unfold blk
  rw [View.read_apply]
  show (V c main_arg2 : S64.Idx → EReal) _ = _
  congr 1
  funext a
  apply Fin.ext
  match a with
  | ⟨0, _⟩ => show win1_2.index t (0 : Fin 1) * 64 + 1 * (y 0).val = (y 0).val; omega

/-- The states' block at point t is batch t / 4's 64 states. -/
theorem blk3_apply (c : Dev nD) (t : Fin cfg1.N) (y : S1x64x1024.Idx) (i : S4x64x1024.Idx)
    (h0 : (i 0).val = t.val / 4) (h1 : (i 1).val = (y 1).val) (h2 : (i 2).val = (y 2).val) :
    (blk V c 3 t : Vec Ideal S1x64x1024 .f32) y = (V c main_v2 : S4x64x1024.Idx → EReal) i := by
  obtain ⟨-, -, -, -, -, -, e0, e1, e2, -⟩ := index_facts t
  have hy0 : (y 0).val = 0 := Nat.lt_one_iff.mp (y 0).isLt
  unfold blk
  rw [View.read_apply]
  show (V c main_v2 : S4x64x1024.Idx → EReal) _ = _
  congr 1
  funext a
  apply Fin.ext
  match a with
  | ⟨0, _⟩ => show win1_3.index t (0 : Fin 3) * 1 + 1 * (y 0).val = (i 0).val; omega
  | ⟨1, _⟩ => show win1_3.index t (1 : Fin 3) * 64 + 1 * (y 1).val = (i 1).val; omega
  | ⟨2, _⟩ => show win1_3.index t (2 : Fin 3) * 1024 + 1 * (y 2).val = (i 2).val; omega

/-- The output weights' block is the whole array. -/
theorem blk4_eq (c : Dev nD) (t : Fin cfg1.N) (y : S1024x1024.Idx) :
    (blk V c 4 t : Vec Ideal S1024x1024 .bf16) y = (V c main_v1 : S1024x1024.Idx → EReal) y := by
  obtain ⟨-, -, -, -, -, -, -, -, -, e0, e1, -⟩ := index_facts t
  unfold blk
  rw [View.read_apply]
  show (V c main_v1 : S1024x1024.Idx → EReal) _ = _
  congr 1
  funext a
  apply Fin.ext
  match a with
  | ⟨0, _⟩ => show win1_4.index t (0 : Fin 2) * 1024 + 1 * (y 0).val = (y 0).val; omega
  | ⟨1, _⟩ => show win1_4.index t (1 : Fin 2) * 1024 + 1 * (y 1).val = (y 1).val; omega

/-! ## The tile is the result's block -/

/-- The tile at point t, at (row r, feature j), is `Out` at the array index that row and feature sit at. -/
theorem tile_eq_out (c : Dev nD) (t : Fin cfg1.N) (r : Fin 512) (j : Fin 1024) (i : S4x2048x1024.Idx)
    (h0 : (i 0).val = t.val / 4) (h1 : (i 1).val = 512 * (t.val % 4) + r.val) (h2 : (i 2).val = j.val) :
    tileOut (blk V c 0 t) (blk V c 1 t) (blk V c 2 t) (blk V c 3 t) (blk V c 4 t) (ix3 0 r j) = Out V c i := by
  rw [tile_apply]
  have hX : (fun d => (blk V c 0 t : Vec Ideal S1x512x1024 .f32) (ix3 0 r d)) = X V c (i 0) (i 1) :=
    funext fun d => blk0_apply V c t (ix3 0 r d) _ h0 h1 rfl
  have hC : (fun k d => (blk V c 1 t : Vec Ideal S64x1024 .f32) (ix2 k d)) = Ctr V c :=
    funext fun k => funext fun d => blk1_eq V c t (ix2 k d)
  have hL : (fun k => (blk V c 2 t : Vec Ideal S64 .f32) (ix1 k)) = Ls V c := funext fun k => blk2_eq V c t (ix1 k)
  have hS : ∀ (k : Fin 64) (d : Fin 1024), (blk V c 3 t : Vec Ideal S1x64x1024 .f32) (ix3 0 k d) = St V c (i 0) k d :=
    fun k d => blk3_apply V c t (ix3 0 k d) _ h0 rfl rfl
  have hW : (fun j d => (blk V c 4 t : Vec Ideal S1024x1024 .bf16) (ix2 j d)) = Wo V c :=
    funext fun j => funext fun d => blk4_eq V c t (ix2 j d)
  have hj : j = i 2 := Fin.ext h2.symm
  rw [hX, hC, hL, hW]
  simp only [hS]
  rw [hj]

/-- The same at any index of the block: the array index is the block's own embedding. -/
theorem tile_at (c : Dev nD) (t : Fin cfg1.N) (y : S1x512x1024.Idx) :
    tileOut (blk V c 0 t) (blk V c 1 t) (blk V c 2 t) (blk V c 3 t) (blk V c 4 t) y
      = Out V c (((cfg1.win 5).blk t).view.emb y) := by
  obtain ⟨-, -, -, -, -, -, -, -, -, -, -, e0, e1, e2⟩ := index_facts t
  obtain ⟨u, r, j, rfl⟩ : ∃ (u : Fin 1) (r : Fin 512) (j : Fin 1024), y = ix3 u r j := ⟨y 0, y 1, y 2, eq_ix3 y⟩
  obtain rfl : u = 0 := Fin.eq_zero u
  refine tile_eq_out V c t r j _ ?_ ?_ ?_
  · show win1_5.index t (0 : Fin 3) * 1 + 1 * 0 = t.val / 4; omega
  · show win1_5.index t (1 : Fin 3) * 512 + 1 * r.val = 512 * (t.val % 4) + r.val; omega
  · show win1_5.index t (2 : Fin 3) * 1024 + 1 * j.val = j.val; omega

/-- What point t writes back is block t of `Out`. -/
theorem flushed_eq (c : Dev nD) (t : Fin cfg1.N) :
    (dat V c).flushed 5 t = ((cfg1.win 5).blk t).view.read (Elt Ideal) (Out V c) := by
  show (cfg1.win 5).cut (grid1.coords t) ((dat V c).after 5 t) = _
  rw [after5]
  funext y
  exact tile_at V c t y

/-! ## The blocks tile the array -/

/-- An index of the array is in point t's block iff each coordinate is in the block's range on its axis. -/
theorem mem_blk (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v3).slice (win1_5.rect t)).set ↔ _
  rw [View.set_slice_whole, Rect.mem_set_unit]
  exact Iff.rfl

/-- Token (b, s) lies in the block of point 4·b + s / 512. -/
theorem covered (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hN : cfg1.N = 16 := N_1
  obtain ⟨t, ht⟩ : ∃ t : Fin cfg1.N, t.val = 4 * (i 0).val + (i 1).val / 512 := ⟨⟨4 * (i 0).val + (i 1).val / 512, by omega⟩, rfl⟩
  obtain ⟨-, -, -, -, -, -, -, -, -, -, -, e0, e1, e2⟩ := index_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-! ## The result array -/

/-- The result array after the call: at (b, s, j), token (b, s)'s affinities read batch b's states back, and the row so
    read goes through the transpose of the output weights. -/
theorem result_value (c : Dev nD) :
    (dat V c).arrAt 5 cfg1.N = fun i => Cert.Spec.linRow
      (fun d => ∑ k : Fin 64, Cert.Spec.affRow (X V c (i 0) (i 1)) (Ctr V c) (Ls V c) k * St V c (i 0) k d) (Wo V c) (i 2) :=
  (dat V c).arrAt_eq_of_cover 5 (Out V c) (fun t _ => flushed_eq V c t) covered

end Cert.KernelIdeal.Stage2

end
-- ==== Proof.KI.Bridge.lean ====
/-
  The kernel's result is the specification. The second call leaves, at token (b, s) and feature j, the row
  Σ_k aff[b,s,k] · states[b,k,·] times the transpose of w_out; the states it read are what the first call left, which
  is the sum over ALL 2048 tokens of the batch of aff[b,s,k] · v[b,s,·] — the four tiles' contributions added up in
  order from zero, a re-association of that one sum. The operands both calls see are the launch arguments (the bf16
  copies of the weights are the weights on the extended reals). So the result array is `Spec.outArr` of the five
  arguments. Only commutativity and associativity of + are used: no entry needs to be finite.
-/
import proofs.«160092_j49744311222296_1_alg».proof.Proof.KI.Entry
import proofs.«160092_j49744311222296_1_alg».proof.Proof.KI.States
import proofs.«160092_j49744311222296_1_alg».proof.Proof.KI.Result
import proofs.«160092_j49744311222296_1_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The centre states the first call leaves are the specification's, of the launch arguments. -/
theorem states_eq (c : Dev nD) (b : Fin 4) (k : Fin 64) (d : Fin 1024) :
    W2 m c main_v2 (ix3 b k d)
      = Cert.Spec.splat (fun b s d => m ((c : Thread nD τ).loc main_arg0) (ix3 b s d)) (fun k d => m ((c : Thread nD τ).loc main_arg1) (ix2 k d))
          (fun k => m ((c : Thread nD τ).loc main_arg2) (ix1 k)) (fun j d => m ((c : Thread nD τ).loc main_arg3) (ix2 j d)) b k d := by
  rw [W2_self]
  unfold states
  rw [Stage1.states_value (Vin0 m) c]
  show Cert.Spec.splat (fun b s d => Gen.V1 m c main_arg0 (ix3 b s d)) (fun k d => Gen.V1 m c main_arg1 (ix2 k d))
    (fun k => Gen.V1 m c main_arg2 (ix1 k)) (fun j d => (Gen.V1 m c main_v0 : S1024x1024.Idx → EReal) (ix2 j d)) b k d = _
  rw [V1_arg0, V1_arg1, V1_arg2, V1_v0]

/-- The result array the second call leaves is the specification's, of the launch arguments. -/
theorem result_eq (c : Dev nD) :
    result m c = Cert.Spec.outArr (m ((c : Thread nD τ).loc main_arg0)) (m ((c : Thread nD τ).loc main_arg1))
      (m ((c : Thread nD τ).loc main_arg2)) (m ((c : Thread nD τ).loc main_arg3)) (m ((c : Thread nD τ).loc main_arg4)) := by
  unfold result
  rw [Stage2.result_value (Vin1 m) c]
  refine funext fun (i : S4x2048x1024.Idx) => ?_
  obtain ⟨b, s, j, rfl⟩ : ∃ (b : Fin 4) (s : Fin 2048) (j : Fin 1024), i = ix3 b s j := ⟨i 0, i 1, i 2, eq_ix3 i⟩
  show Cert.Spec.linRow (fun d => ∑ k : Fin 64, Cert.Spec.affRow (fun d' => W2 m c main_arg0 (ix3 b s d'))
      (fun k d => W2 m c main_arg1 (ix2 k d)) (fun k => W2 m c main_arg2 (ix1 k)) k * W2 m c main_v2 (ix3 b k d))
    (fun j d => (W2 m c main_v1 : S1024x1024.Idx → EReal) (ix2 j d)) j = _
  rw [W2_arg0, W2_arg1, W2_arg2, W2_v1]
  unfold Cert.Spec.outArr Cert.Spec.out Cert.Spec.tok
  refine congrArg (fun f => Cert.Spec.linRow f _ j) (funext fun d => Finset.sum_congr rfl fun k _ => ?_)
  rw [states_eq]

end Cert.KernelIdeal.Whole

end
-- ==== Proof.LibPowOne.lean ====
/-
  Raising to the power one does nothing, at every extended real: a real `r` has `r ^ 1 = r`, and the two
  infinities are fixed by any positive exponent. The f32 word `0x3F800000` has sign 0, biased exponent 127 and
  zero fraction, so it denotes `2 ^ 23 * 2 ^ (127 - 127 - 23) = 1`.
-/
import Idealize.ShloMosaic.PureOps.Ideal

noncomputable section

namespace Cert.LibPowOne

open Idealize.ShloMosaic

/-- The f32 word `0x3F800000` denotes the real number one. -/
theorem ofBits_one_f32 : Ideal.ofBits .f32 0x3F800000#32 = 1 := by
  simp [Ideal.ofBits, Ideal.ieee, -EReal.coe_mul]; norm_num

/-- The power with exponent one is the identity on the extended reals: `⊥` stays `⊥`, `⊤` stays `⊤` because
    the exponent is positive, and on a real it is `Real.rpow_one`. -/
theorem pow_one (y : EReal) : Ideal.pow y 1 = y := by
  rw [← EReal.coe_one]
  induction y using EReal.rec with
  | bot => rfl
  | top => rw [Ideal.pow_top, if_pos (EReal.coe_pos.2 one_pos)]
  | coe r => rw [Ideal.pow_coe_coe]; exact congrArg (fun t : ℝ => (t : EReal)) (Real.rpow_one r)

/-- The same with the exponent spelt as the f32 word of one. -/
theorem pow_ofBits_one (y : EReal) : Ideal.pow y (Ideal.ofBits .f32 0x3F800000#32) = y := by
  rw [ofBits_one_f32, pow_one]

end Cert.LibPowOne

end
-- ==== Proof.RefSpecA.lean ====
/-
  The reference, read one token row at a time. Every intermediate that depends on a single token `(b, s)` — the
  clipped scale of a centre, the squared norms, the cross term, the squared distance, the unnormalised and the
  normalised affinity, the value row — is the corresponding row quantity of the specification, evaluated at the
  row `d ↦ x[b, s, d]`. The sums start from the zero word, which is `0`, and `0 + t = t`.
-/
import proofs.«160092_j49744311222296_1_alg».proof.Proof.Gen.ReferenceIdeal.Read
import proofs.«160092_j49744311222296_1_alg».proof.Proof.Spec
import proofs.«160092_j49744311222296_1_alg».proof.Proof.LibPowOne
import Idealize.ShloMosaic.Lib.ValueIdx
import Idealize.ShloMosaic.PureOps.Ideal.Laws

noncomputable section

namespace Cert.RefSpec

open Cert.ReferenceIdeal Cert.ReferenceIdeal.Read Idealize.ShloMosaic Idealize.ShloMosaic.ValueIdx

/-- The array types of the five arguments. -/
abbrev TX := (⟨S4x2048x1024, .f32⟩ : BufTy).Contents (Elt Ideal)
abbrev TC := (⟨S64x1024, .f32⟩ : BufTy).Contents (Elt Ideal)
abbrev TL := (⟨S64, .f32⟩ : BufTy).Contents (Elt Ideal)
abbrev TW := (⟨S1024x1024, .f32⟩ : BufTy).Contents (Elt Ideal)

/-! ## The clipped scales and the squared norms -/

/-- The clipped scale of centre `k`: `min 2 (max 0.1 (exp l[k]))`. -/
theorem scale_eq (x2 : TL) (k : Fin 64) :
    val_main_v2 (F := Ideal) x2 (ix1 k) = Spec.scale (fun k => x2 (ix1 k)) k := by
  simp only [val_main_v2_apply, val_main_call0_v4_apply, val_main_call0_v3_apply, val_main_cst_0_apply,
    val_main_call0_v2_apply, val_main_call0_v1_apply, val_main_call0_v0_apply, val_main_cst_apply,
    val_main_v1_apply, Ideal.ofBits_def, Ideal.minimumf_def, Ideal.maximumf_def, Ideal.hostUnary_exp_def]
  rfl

/-- The squared norm of token `(b, s)`. -/
theorem xsq_eq (x0 : TX) (b : Fin 4) (s : Fin 2048) :
    val_main_v4 (F := Ideal) x0 (ix2 b s) = ∑ d : Fin 1024, x0 (ix3 b s d) * x0 (ix3 b s d) := by
  rw [val_main_v4_apply, val_main_cst_1_apply, Ideal.ofBits_def, Ideal.ofBits_zero_f32, zero_add]
  refine Finset.sum_congr rfl fun d _ => ?_
  have hi : idx_main_v4 (ix2 b s) d = ix3 b s d :=
    funext fun a => Fin.ext (by match a with | ⟨0, _⟩ => rfl | ⟨1, _⟩ => rfl | ⟨2, _⟩ => rfl)
  rw [hi, val_main_v3_apply, Ideal.mulf_def]

/-- The squared norm of centre `k`. -/
theorem csq_eq (x1 : TC) (k : Fin 64) :
    val_main_v7 (F := Ideal) x1 (ix1 k) = Spec.csq (fun k d => x1 (ix2 k d)) k := by
  rw [val_main_v7_apply, val_main_cst_2_apply, Ideal.ofBits_def, Ideal.ofBits_zero_f32, zero_add]
  unfold Spec.csq
  refine Finset.sum_congr rfl fun d _ => ?_
  have hi : idx_main_v7 (ix1 k) d = ix2 k d :=
    funext fun a => Fin.ext (by match a with | ⟨0, _⟩ => rfl | ⟨1, _⟩ => rfl)
  rw [hi, val_main_v6_apply, Ideal.mulf_def]

/-- The cross term of token `(b, s)` with centre `k`. -/
theorem cross_eq (x0 : TX) (x1 : TC) (b : Fin 4) (s : Fin 2048) (k : Fin 64) :
    val_main_v8 (F := Ideal) x0 x1 (ix3 b s k) = ∑ d : Fin 1024, x0 (ix3 b s d) * x1 (ix2 k d) := by
  rw [val_main_v8_apply]
  refine Finset.sum_congr rfl fun d _ => ?_
  have hl : lidx_main_v8 (ix3 b s k) d = ix3 b s d :=
    funext fun a => Fin.ext (by match a with | ⟨0, _⟩ => rfl | ⟨1, _⟩ => rfl | ⟨2, _⟩ => rfl)
  have hr : ridx_main_v8 (ix3 b s k) d = ix2 k d :=
    funext fun a => Fin.ext (by match a with | ⟨0, _⟩ => rfl | ⟨1, _⟩ => rfl)
  rw [hl, hr]

/-! ## The distance, the affinity and the value row of one token -/

/-- The squared distance of token `(b, s)` to centre `k`, added up as `(|x|² − 2·x·c) + |c|²`. -/
theorem dist_eq (x0 : TX) (x1 : TC) (b : Fin 4) (s : Fin 2048) (k : Fin 64) :
    val_main_v15 (F := Ideal) x0 x1 (ix3 b s k)
      = Spec.distRow (fun d => x0 (ix3 b s d)) (fun k d => x1 (ix2 k d)) k := by
  have h5 : idx_main_v5 (idx_main_v11 (ix3 b s k)) = ix2 b s :=
    funext fun a => Fin.ext (by match a with | ⟨0, _⟩ => rfl | ⟨1, _⟩ => rfl)
  have h13 : idx_main_v13 (idx_main_v14 (ix3 b s k)) = ix1 k :=
    funext fun a => Fin.ext (by match a with | ⟨0, _⟩ => rfl)
  rw [val_main_v15_apply, val_main_v12_apply, val_main_v11_apply, val_main_v5_apply, h5, xsq_eq,
    val_main_v10_apply, val_main_v9_apply, val_main_cst_3_apply, cross_eq,
    val_main_v14_apply, val_main_v13_apply, h13, csq_eq]
  simp only [Ideal.addf_def, Ideal.subf_def, Ideal.mulf_def, Ideal.ofBits_def]
  rfl

/-- The unnormalised affinity `exp((−½·dist) / (σ·σ))` of token `(b, s)` to centre `k`. -/
theorem e_eq (x0 : TX) (x1 : TC) (x2 : TL) (b : Fin 4) (s : Fin 2048) (k : Fin 64) :
    val_main_v22 (F := Ideal) x0 x1 x2 (ix3 b s k)
      = Spec.eRow (fun d => x0 (ix3 b s d)) (fun k d => x1 (ix2 k d)) (fun k => x2 (ix1 k)) k := by
  have h19 : idx_main_v19 (idx_main_v20 (ix3 b s k)) = ix1 k :=
    funext fun a => Fin.ext (by match a with | ⟨0, _⟩ => rfl)
  rw [val_main_v22_apply, val_main_v21_apply, val_main_v17_apply, val_main_v16_apply, val_main_cst_4_apply,
    dist_eq, val_main_v20_apply, val_main_v19_apply, h19, val_main_v18_apply, scale_eq]
  simp only [Ideal.hostUnary_exp_def, Ideal.hostDivf_def, Ideal.mulf_def, Ideal.ofBits_def]
  rfl

/-- Raised to the power one it is the same number. -/
theorem epow_eq (x0 : TX) (x1 : TC) (x2 : TL) (b : Fin 4) (s : Fin 2048) (k : Fin 64) :
    val_main_v24 (F := Ideal) x0 x1 x2 (ix3 b s k)
      = Spec.eRow (fun d => x0 (ix3 b s d)) (fun k d => x1 (ix2 k d)) (fun k => x2 (ix1 k)) k := by
  rw [val_main_v24_apply, val_main_v23_apply, val_main_cst_5_apply, e_eq, Ideal.hostPowf_def, Ideal.ofBits_def,
    LibPowOne.pow_ofBits_one]

/-- The normaliser of token `(b, s)`: the sum over the centres plus `ε`, the same for every centre `k`. -/
theorem den_eq (x0 : TX) (x1 : TC) (x2 : TL) (b : Fin 4) (s : Fin 2048) (k : Fin 64) :
    val_main_v29 (F := Ideal) x0 x1 x2 (ix3 b s k)
      = (∑ k' : Fin 64, Spec.eRow (fun d => x0 (ix3 b s d)) (fun k d => x1 (ix2 k d)) (fun k => x2 (ix1 k)) k')
          + Spec.eps := by
  have h26 : idx_main_v26 (idx_main_v29 (ix3 b s k)) = ix2 b s :=
    funext fun a => Fin.ext (by match a with | ⟨0, _⟩ => rfl | ⟨1, _⟩ => rfl)
  rw [val_main_v29_apply, val_main_v28_apply, val_main_v26_apply, h26, val_main_v25_apply, val_main_cst_6_apply,
    val_main_v27_apply, val_main_cst_7_apply]
  simp only [Ideal.addf_def, Ideal.ofBits_def, Ideal.ofBits_zero_f32, zero_add]
  refine congrArg (· + _) (Finset.sum_congr rfl fun k' _ => ?_)
  have h25 : idx_main_v25 (ix2 b s) k' = ix3 b s k' :=
    funext fun a => Fin.ext (by match a with | ⟨0, _⟩ => rfl | ⟨1, _⟩ => rfl | ⟨2, _⟩ => rfl)
  rw [h25, epow_eq]

/-- The affinity of token `(b, s)` to centre `k`. -/
theorem aff_eq (x0 : TX) (x1 : TC) (x2 : TL) (b : Fin 4) (s : Fin 2048) (k : Fin 64) :
    val_main_v30 (F := Ideal) x0 x1 x2 (ix3 b s k)
      = Spec.affRow (fun d => x0 (ix3 b s d)) (fun k d => x1 (ix2 k d)) (fun k => x2 (ix1 k)) k := by
  rw [val_main_v30_apply, epow_eq, den_eq, Ideal.hostDivf_def]
  rfl

/-- The value row of token `(b, s)` at feature `j`. -/
theorem lin_eq (x0 : TX) (x3 : TW) (b : Fin 4) (s : Fin 2048) (j : Fin 1024) :
    val_main_v0 (F := Ideal) x0 x3 (ix3 b s j)
      = Spec.linRow (fun d => x0 (ix3 b s d)) (fun j d => x3 (ix2 j d)) j := by
  rw [val_main_v0_apply]
  unfold Spec.linRow
  refine Finset.sum_congr rfl fun d _ => ?_
  have hl : lidx_main_v0 (ix3 b s j) d = ix3 b s d :=
    funext fun a => Fin.ext (by match a with | ⟨0, _⟩ => rfl | ⟨1, _⟩ => rfl | ⟨2, _⟩ => rfl)
  have hr : ridx_main_v0 (ix3 b s j) d = ix2 j d :=
    funext fun a => Fin.ext (by match a with | ⟨0, _⟩ => rfl | ⟨1, _⟩ => rfl)
  rw [hl, hr]

end Cert.RefSpec

end
-- ==== Proof.RefSpec.lean ====
/-
  The reference's result is the specification. A centre's state in a batch is the affinity-weighted sum of the
  batch's value rows, a token reads the states back with its own affinities, and the result is that read-back
  times the transpose of the output weights: three contractions whose summands are the row quantities of the
  specification, so each is the specification's sum term by term.
-/
import proofs.«160092_j49744311222296_1_alg».proof.Proof.RefSpecA

noncomputable section

namespace Cert.RefSpec

open Cert.ReferenceIdeal Cert.ReferenceIdeal.Read Idealize.ShloMosaic Idealize.ShloMosaic.ValueIdx

/-- The state of centre `k` in batch `b` at feature `j`: the sum over the batch's tokens. -/
theorem splat_eq (x0 : TX) (x1 : TC) (x2 : TL) (x3 : TW) (b : Fin 4) (k : Fin 64) (j : Fin 1024) :
    val_main_v31 (F := Ideal) x0 x1 x2 x3 (ix3 b k j)
      = Spec.splat (fun b s d => x0 (ix3 b s d)) (fun k d => x1 (ix2 k d)) (fun k => x2 (ix1 k))
          (fun j d => x3 (ix2 j d)) b k j := by
  rw [val_main_v31_apply]
  unfold Spec.splat
  refine Finset.sum_congr rfl fun s _ => ?_
  have hl : lidx_main_v31 (ix3 b k j) s = ix3 b s k :=
    funext fun a => Fin.ext (by match a with | ⟨0, _⟩ => rfl | ⟨1, _⟩ => rfl | ⟨2, _⟩ => rfl)
  have hr : ridx_main_v31 (ix3 b k j) s = ix3 b s j :=
    funext fun a => Fin.ext (by match a with | ⟨0, _⟩ => rfl | ⟨1, _⟩ => rfl | ⟨2, _⟩ => rfl)
  rw [hl, hr, aff_eq, lin_eq]

/-- What token `(b, s)` reads back at feature `j`: the sum over the centres. -/
theorem tok_eq (x0 : TX) (x1 : TC) (x2 : TL) (x3 : TW) (b : Fin 4) (s : Fin 2048) (j : Fin 1024) :
    val_main_v32 (F := Ideal) x0 x1 x2 x3 (ix3 b s j)
      = Spec.tok (fun b s d => x0 (ix3 b s d)) (fun k d => x1 (ix2 k d)) (fun k => x2 (ix1 k))
          (fun j d => x3 (ix2 j d)) b s j := by
  rw [val_main_v32_apply]
  unfold Spec.tok
  refine Finset.sum_congr rfl fun k _ => ?_
  have hl : lidx_main_v32 (ix3 b s j) k = ix3 b s k :=
    funext fun a => Fin.ext (by match a with | ⟨0, _⟩ => rfl | ⟨1, _⟩ => rfl | ⟨2, _⟩ => rfl)
  have hr : ridx_main_v32 (ix3 b s j) k = ix3 b k j :=
    funext fun a => Fin.ext (by match a with | ⟨0, _⟩ => rfl | ⟨1, _⟩ => rfl | ⟨2, _⟩ => rfl)
  rw [hl, hr, aff_eq, splat_eq]

/-- The result at `(b, s, j)`: the read-back row times the transpose of the output weights. -/
theorem out_eq (x0 : TX) (x1 : TC) (x2 : TL) (x3 x4 : TW) (b : Fin 4) (s : Fin 2048) (j : Fin 1024) :
    val_main_v33 (F := Ideal) x0 x1 x2 x3 x4 (ix3 b s j)
      = Spec.out (fun b s d => x0 (ix3 b s d)) (fun k d => x1 (ix2 k d)) (fun k => x2 (ix1 k))
          (fun j d => x3 (ix2 j d)) (fun j d => x4 (ix2 j d)) b s j := by
  rw [val_main_v33_apply]
  unfold Spec.out Spec.linRow
  refine Finset.sum_congr rfl fun d _ => ?_
  have hl : lidx_main_v33 (ix3 b s j) d = ix3 b s d :=
    funext fun a => Fin.ext (by match a with | ⟨0, _⟩ => rfl | ⟨1, _⟩ => rfl | ⟨2, _⟩ => rfl)
  have hr : ridx_main_v33 (ix3 b s j) d = ix2 j d :=
    funext fun a => Fin.ext (by match a with | ⟨0, _⟩ => rfl | ⟨1, _⟩ => rfl)
  rw [hl, hr, tok_eq]

/-- The reference's result array is the specification's, index by index. -/
theorem result_eq
    (x0 : (⟨Cert.ReferenceIdeal.S4x2048x1024, .f32⟩ : BufTy).Contents (Elt Ideal))
    (x1 : (⟨Cert.ReferenceIdeal.S64x1024, .f32⟩ : BufTy).Contents (Elt Ideal))
    (x2 : (⟨Cert.ReferenceIdeal.S64, .f32⟩ : BufTy).Contents (Elt Ideal))
    (x3 x4 : (⟨Cert.ReferenceIdeal.S1024x1024, .f32⟩ : BufTy).Contents (Elt Ideal)) :
    Cert.ReferenceIdeal.Read.val_main_v33 (F := Ideal) x0 x1 x2 x3 x4 = Cert.Spec.outArr x0 x1 x2 x3 x4 := by
  funext i
  obtain ⟨b, s, j, rfl⟩ : ∃ (b : Fin 4) (s : Fin 2048) (j : Fin 1024), i = ix3 b s j :=
    ⟨i 0, i 1, i 2, eq_ix3 i⟩
  exact out_eq x0 x1 x2 x3 x4 b s j

end Cert.RefSpec

end
-- ==== Proof.lean ====
/-
  The five claims of this certificate.

  The kernel computes a "splat attention" layer in two pallas_calls over a 4 × 4 grid of (batch, tile of 512 tokens):
  the first accumulates, per batch, the 64 centre states  Σ_s aff[b,s,k] · v[b,s,·]  in a scratch buffer carried across
  the four tiles of the batch and stores them at the batch's last tile; the second re-derives each token's affinities,
  reads the states back and applies the output weights. The reference computes the same quantities with whole-array
  einsums.

  * The three frames. Each kernel program's frame comes from running both call bodies once per kind of grid point
    (first / middle / last tile of a batch for the first call) on whole staging buffers, the scratch's running contents
    defined by recursion on the point, and the library's several-region launch (Proof/K, Proof/KI: the same text at the
    word-level and at the ideal instance). The reference has no kernel: its frame is its run with the result dropped.
  * `preserves`: the idealization rewrote nothing, so the conjunct is `True`.
  * `algebraic`: both programs end with the result array at `Cert.Spec.outArr` of the five arguments (Proof/Spec.lean).
    For the kernel: the two calls' write-backs cover their output arrays, each block the body's arithmetic of the blocks
    it read, and four tiles' contributions added up from zero are the one sum over the batch's 2048 tokens. For the
    reference: its 48 host operations read at an index, where the power `e ** 1.0` it applies is the identity on every
    extended real. Nothing uses the finiteness of the inputs.
-/
import proofs.«160092_j49744311222296_1_alg».proof.Defs
import proofs.«160092_j49744311222296_1_alg».proof.Proof.Gen.Kernel
import proofs.«160092_j49744311222296_1_alg».proof.Proof.Gen.KernelIdeal
import proofs.«160092_j49744311222296_1_alg».proof.Proof.Gen.ReferenceIdeal
import proofs.«160092_j49744311222296_1_alg».proof.Proof.Gen.Pre_finite_inputs
import proofs.«160092_j49744311222296_1_alg».proof.Proof.Gen.ReferenceIdeal.Run
import proofs.«160092_j49744311222296_1_alg».proof.Proof.K.Whole
import proofs.«160092_j49744311222296_1_alg».proof.Proof.KI.Whole
import proofs.«160092_j49744311222296_1_alg».proof.Proof.KI.Named
import proofs.«160092_j49744311222296_1_alg».proof.Proof.KI.Bridge
import proofs.«160092_j49744311222296_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Whole.frame (F := Bits) m ρ

theorem frame_ki : Cert.frame_KernelIdeal := fun m ρ _ => Cert.KernelIdeal.Whole.frame (F := Ideal) m ρ

/-- The reference's run ends with its arguments unchanged (and its result at the operations' composed term, dropped here). -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the five arguments both programs end with the result at the specification of those arguments. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_eq m c), (h c).2⟩) (Cert.KernelIdeal.Whole.run (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v33_eq, Cert.RefSpec.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
